-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S48x64 : Shape := ⟨2, ![48, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S48x64 : S_.BroadcastsInDim S48x64 (![] : Fin 0 → Fin S48x64.rank)
  reducesTo_S48x64_S_d0_1 : S48x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S48x64 .f32) (main_arg10 : FVec F S1 .f32) (main_v33 : IVec S_ 1) : IVec S_ 1 :=
  let main_v34 : FVec F S48x64 .f32 := Host.absf main_arg9
  let main_cst_12 : FVec F S_ .f32 := constant S_ .f32 0x7F800000#32
  let main_v35 : FVec F S48x64 .f32 := broadcastInDim S48x64 ![] bcast_S_S48x64 main_cst_12
  let main_v36 : IVec S48x64 1 := cmpf .olt main_v34 main_v35
  let main_c_13 : IVec S_ 1 := constantI S_ 1 1#1
  let main_v37 : IVec S_ 1 := (fun x v => Host.reduce IntOp.andi x v reducesTo_S48x64_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S48x64 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S48x64 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S48x64 : Shape := ⟨2, ![48, 64]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S64x48 : Shape := ⟨2, ![64, 48]⟩
abbrev S1024x48 : Shape := ⟨2, ![1024, 48]⟩
abbrev S48 : Shape := ⟨1, ![48]⟩
abbrev S1x48 : Shape := ⟨2, ![1, 48]⟩
abbrev S1024x16x3 : Shape := ⟨3, ![1024, 16, 3]⟩
abbrev S1024x16 : Shape := ⟨2, ![1024, 16]⟩
abbrev S1x1 : Shape := ⟨2, ![1, 1]⟩
abbrev S1024x17 : Shape := ⟨2, ![1024, 17]⟩

abbrev nBuf : Space → Nat
  | .hbm => 146
  | .vmem => 22
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S48x64, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x1, .f32⟩
  | 94 => ⟨S1700000x64, .f32⟩
  | 95 => ⟨S1700000x64, .f32⟩
  | 96 => ⟨S_, .f32⟩
  | 97 => ⟨S100000x64, .f32⟩
  | 98 => ⟨S1700000x1, .i32⟩
  | 99 => ⟨S100000x64, .f32⟩
  | 100 => ⟨S1x64, .f32⟩
  | 101 => ⟨S100000x64, .f32⟩
  | 102 => ⟨S_, .f32⟩
  | 103 => ⟨S1024x64, .f32⟩
  | 104 => ⟨S100000x1, .i32⟩
  | 105 => ⟨S1024x64, .f32⟩
  | 106 => ⟨S_, .f32⟩
  | 107 => ⟨S100000, .f32⟩
  | 108 => ⟨S_, .f32⟩
  | 109 => ⟨S1024, .f32⟩
  | 110 => ⟨S100000x1, .i32⟩
  | 111 => ⟨S1024, .f32⟩
  | 112 => ⟨S_, .f32⟩
  | 113 => ⟨S1024, .f32⟩
  | 114 => ⟨S1024, .f32⟩
  | 115 => ⟨S1024x1, .f32⟩
  | 116 => ⟨S1024x64, .f32⟩
  | 117 => ⟨S1024x64, .f32⟩
  | 118 => ⟨S1024x64, .f32⟩
  | 119 => ⟨S_, .f32⟩
  | 120 => ⟨S1024, .f32⟩
  | 121 => ⟨S1024x1, .f32⟩
  | 122 => ⟨S_, .f32⟩
  | 123 => ⟨S1024x64, .f32⟩
  | 124 => ⟨S1024x64, .f32⟩
  | 125 => ⟨S64x48, .f32⟩
  | 126 => ⟨S1024x48, .f32⟩
  | 127 => ⟨S1024x48, .f32⟩
  | _ => ⟨S100000x128, .f32⟩

abbrev hbmTy0_1 (i : Nat) : BufTy := match i % 128 with
  | 0 => ⟨S1024x48, .f32⟩
  | 1 => ⟨S48x64, .f32⟩
  | 2 => ⟨S_, .f32⟩
  | 3 => ⟨S48, .f32⟩
  | 4 => ⟨S1x48, .f32⟩
  | 5 => ⟨S1024x48, .f32⟩
  | 6 => ⟨S1024x48, .f32⟩
  | 7 => ⟨S1024x16x3, .f32⟩
  | 8 => ⟨S_, .f32⟩
  | 9 => ⟨S1024x16, .f32⟩
  | 10 => ⟨S1024x16, .f32⟩
  | 11 => ⟨S_, .f32⟩
  | 12 => ⟨S1024, .f32⟩
  | 13 => ⟨S1024x1, .f32⟩
  | 14 => ⟨S1x1, .f32⟩
  | 15 => ⟨S1024x1, .f32⟩
  | 16 => ⟨S1024x1, .f32⟩
  | 17 => ⟨S1024x17, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_cst_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_21 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  reducesTo_S1024x64_S1024_d1 : S1024x64.ReducesTo [1] S1024
  h_S_ : 0 < S_.numel
  transposes_S48x64_S64x48_1_0 : S48x64.Transposes [1, 0] S64x48
  bcast_S1024x1_S1024x48_0_1 : S1024x1.BroadcastsInDim S1024x48 (![0, 1] : Fin 2 → Fin S1024x48.rank)
  reducesTo_S48x64_S48_d1 : S48x64.ReducesTo [1] S48
  bcast_S48_S1x48_1 : S48.BroadcastsInDim S1x48 (![1] : Fin 1 → Fin S1x48.rank)
  bcast_S1x48_S1024x48_0_1 : S1x48.BroadcastsInDim S1024x48 (![0, 1] : Fin 2 → Fin S1024x48.rank)
  shapeCasts_S1024x48_S1024x16x3 : S1024x48.ShapeCasts S1024x16x3
  reducesTo_S1024x16x3_S1024x16_d2 : S1024x16x3.ReducesTo [2] S1024x16
  reducesTo_S1024x16_S1024_d1 : S1024x16.ReducesTo [1] S1024
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  concatenates_S1024x16_S1024x1_S1024x17_d1 : Shape.Concatenates [S1024x16, S1024x1] S1024x17 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x48_S1024x48_1_0_0_1_n_n_wf : DotDims.WF S1024x64 S64x48 S1024x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x48_S1024x48_1_0_0_1_n_n : DotDims S1024x64 S64x48 S1024x48 where
  lhsContracting := [1]
  rhsContracting := [0]
  lhsNonContracting := [0]
  rhsNonContracting := [1]
  lhsBatch := []
  rhsBatch := []
  wf := dot_S1024x64_S64x48_S1024x48_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S48x64 : Shape := ⟨2, ![48, 64]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S64x48 : Shape := ⟨2, ![64, 48]⟩
abbrev S1024x48 : Shape := ⟨2, ![1024, 48]⟩
abbrev S48 : Shape := ⟨1, ![48]⟩
abbrev S1x48 : Shape := ⟨2, ![1, 48]⟩
abbrev S1024x16x3 : Shape := ⟨3, ![1024, 16, 3]⟩
abbrev S1024x16 : Shape := ⟨2, ![1024, 16]⟩
abbrev S1x1 : Shape := ⟨2, ![1, 1]⟩
abbrev S1024x17 : Shape := ⟨2, ![1024, 17]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S48x64, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x1, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S1024x64, .f32⟩
  | 115 => ⟨S100000x1, .i32⟩
  | 116 => ⟨S1024x64, .f32⟩
  | 117 => ⟨S_, .f32⟩
  | 118 => ⟨S100000, .f32⟩
  | 119 => ⟨S_, .f32⟩
  | 120 => ⟨S1024, .f32⟩
  | 121 => ⟨S100000x1, .i32⟩
  | 122 => ⟨S1024, .f32⟩
  | 123 => ⟨S_, .f32⟩
  | 124 => ⟨S1024, .f32⟩
  | 125 => ⟨S1024, .f32⟩
  | 126 => ⟨S1024x1, .f32⟩
  | 127 => ⟨S1024x64, .f32⟩
  | _ => ⟨S100000x128, .f32⟩

abbrev hbmTy0_1 (i : Nat) : BufTy := match i % 128 with
  | 0 => ⟨S1024x64, .f32⟩
  | 1 => ⟨S1024x64, .f32⟩
  | 2 => ⟨S_, .f32⟩
  | 3 => ⟨S1024, .f32⟩
  | 4 => ⟨S1024x1, .f32⟩
  | 5 => ⟨S_, .f32⟩
  | 6 => ⟨S1024x64, .f32⟩
  | 7 => ⟨S1024x64, .f32⟩
  | 8 => ⟨S64x48, .f32⟩
  | 9 => ⟨S1024x48, .f32⟩
  | 10 => ⟨S1024x48, .f32⟩
  | 11 => ⟨S1024x48, .f32⟩
  | 12 => ⟨S48x64, .f32⟩
  | 13 => ⟨S_, .f32⟩
  | 14 => ⟨S48, .f32⟩
  | 15 => ⟨S1x48, .f32⟩
  | 16 => ⟨S1024x48, .f32⟩
  | 17 => ⟨S1024x48, .f32⟩
  | 18 => ⟨S1024x16x3, .f32⟩
  | 19 => ⟨S_, .f32⟩
  | 20 => ⟨S1024x16, .f32⟩
  | 21 => ⟨S1024x16, .f32⟩
  | 22 => ⟨S_, .f32⟩
  | 23 => ⟨S1024, .f32⟩
  | 24 => ⟨S1024x1, .f32⟩
  | 25 => ⟨S1x1, .f32⟩
  | 26 => ⟨S1024x1, .f32⟩
  | 27 => ⟨S1024x1, .f32⟩
  | 28 => ⟨S1024x17, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_21 : Ref sig .tc := ⟨.hbm, 147, rfl⟩
abbrev main_v109 : Ref sig .tc := ⟨.hbm, 148, rfl⟩
abbrev main_v110 : Ref sig .tc := ⟨.hbm, 149, rfl⟩
abbrev main_cst_22 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  reducesTo_S1024x64_S1024_d1 : S1024x64.ReducesTo [1] S1024
  h_S_ : 0 < S_.numel
  transposes_S48x64_S64x48_1_0 : S48x64.Transposes [1, 0] S64x48
  bcast_S1024x1_S1024x48_0_1 : S1024x1.BroadcastsInDim S1024x48 (![0, 1] : Fin 2 → Fin S1024x48.rank)
  reducesTo_S48x64_S48_d1 : S48x64.ReducesTo [1] S48
  bcast_S48_S1x48_1 : S48.BroadcastsInDim S1x48 (![1] : Fin 1 → Fin S1x48.rank)
  bcast_S1x48_S1024x48_0_1 : S1x48.BroadcastsInDim S1024x48 (![0, 1] : Fin 2 → Fin S1024x48.rank)
  shapeCasts_S1024x48_S1024x16x3 : S1024x48.ShapeCasts S1024x16x3
  reducesTo_S1024x16x3_S1024x16_d2 : S1024x16x3.ReducesTo [2] S1024x16
  reducesTo_S1024x16_S1024_d1 : S1024x16.ReducesTo [1] S1024
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  concatenates_S1024x16_S1024x1_S1024x17_d1 : Shape.Concatenates [S1024x16, S1024x1] S1024x17 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x48_S1024x48_1_0_0_1_n_n_wf : DotDims.WF S1024x64 S64x48 S1024x48 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x48_S1024x48_1_0_0_1_n_n : DotDims S1024x64 S64x48 S1024x48 where
  lhsContracting := [1]
  rhsContracting := [0]
  lhsNonContracting := [0]
  rhsNonContracting := [1]
  lhsBatch := []
  rhsBatch := []
  wf := dot_S1024x64_S64x48_S1024x48_1_0_0_1_n_n_wf

class Facts : Prop extends Facts₀ where

variable [Facts]
-- ==== Proof.KernelRun.lean ====
/-
  The idealized kernel's run with its result named. @main is five stretches of host operations around four
  pipelined regions; the contents of every unscoped buffer at the nine segment boundaries are the fold
  `Gen.W0 … Gen.W9` (a stretch applies its operations, a region replaces its arrays by what its write-backs
  leave). Every weakly fair execution ends with each unscoped buffer at the last boundary's contents, so the
  result buffer ends at `Gen.W9` read at the result reference, and each argument as launched.
-/
import proofs.«180474_j65481071395054_1_alg».proof.Proof.Gen.KernelIdeal.Frame

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument array as launched. -/
theorem result_run : θ_run defs (onTc (τ := τ) (main (F := F))) ⟨m, fun _ => 0, ρ⟩ (fun r => ∀ c : Dev nD,
      r.2.mem ((c.tc : Thread nD τ).loc main_v109) = W9 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v109 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Pass

end
-- ==== Proof.Region0.lean ====
/-
  The first pipelined region: the node features times the first weight matrix, ten row blocks of 10000 nodes.
  At a grid point the body multiplies the point's 10000 x 128 block of the features by the whole 128 x 64
  weight matrix into a zero accumulator, and that product is written back as the point's block of the output.
  Over the extended reals the matrix unit's product into zero is the plain sum over the 128 contracted
  coordinates, rounding the operands to bf16 changes nothing, and row r of the output lies in block r / 10000;
  so after the region the output array is the host's dot_general of the two arrays as the region finds them.
-/
import proofs.«180474_j65481071395054_1_alg».proof.Proof.Gen.KernelIdeal.Frame
import proofs.«180474_j65481071395054_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Pass

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The body's product at an entry of the block: the sum over the contracted coordinate of the feature row's
    entry times the weight column's entry, and this is the host product of the whole arrays at the entry's place
    in the array when the feature block is rows `q * 10000 …` of the array and the weight block the whole matrix. -/
theorem product_at (x0 : Vec Ideal S10000x128 .f32) (x1 : Vec Ideal S128x64 .f32)
    (X : (⟨Cert.ReferenceIdeal.S100000x128, .f32⟩ : BufTy).Contents (Elt Ideal)) (W : (⟨Cert.ReferenceIdeal.S128x64, .f32⟩ : BufTy).Contents (Elt Ideal))
    (j : S10000x64.Idx) (i : Cert.ReferenceIdeal.S100000x64.Idx) (q : Nat)
    (h0 : ∀ (y : S10000x128.Idx) (y' : Cert.ReferenceIdeal.S100000x128.Idx), (y' 0).val = q * 10000 + (y 0).val → (y' 1).val = (y 1).val → x0 y = X y')
    (h1 : ∀ (y : S128x64.Idx) (y' : Cert.ReferenceIdeal.S128x64.Idx), (y' 0).val = (y 0).val → (y' 1).val = (y 1).val → x1 y = W y')
    (hi0 : (i 0).val = q * 10000 + (j 0).val) (hi1 : (i 1).val = (j 1).val) :
    k0_pay1 (F := Ideal) x0 x1 j = Cert.ReferenceIdeal.Read.val_main_v29 (F := Ideal) X W i := by
  rw [Cert.ReferenceIdeal.Read.val_main_v29_apply]
  unfold k0_pay1
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have l0 : (dot_S10000x128_S128x64_S10000x64_1_0_0_1_n_n.lhsIdx j ((ValueIdx.contrEquiv1 dot_S10000x128_S128x64_S10000x64_1_0_0_1_n_n 128 rfl rfl).symm k) 0).val = (j 0).val := by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  have l1 : (dot_S10000x128_S128x64_S10000x64_1_0_0_1_n_n.lhsIdx j ((ValueIdx.contrEquiv1 dot_S10000x128_S128x64_S10000x64_1_0_0_1_n_n 128 rfl rfl).symm k) 1).val = k.val :=
    (dot_S10000x128_S128x64_S10000x64_1_0_0_1_n_n.lhsIdx_val_of_single rfl j _).trans hk
  have r0 : (dot_S10000x128_S128x64_S10000x64_1_0_0_1_n_n.rhsIdx j ((ValueIdx.contrEquiv1 dot_S10000x128_S128x64_S10000x64_1_0_0_1_n_n 128 rfl rfl).symm k) 0).val = k.val :=
    (dot_S10000x128_S128x64_S10000x64_1_0_0_1_n_n.rhsIdx_val_of_single rfl j _).trans hk
  have r1 : (dot_S10000x128_S128x64_S10000x64_1_0_0_1_n_n.rhsIdx j ((ValueIdx.contrEquiv1 dot_S10000x128_S128x64_S10000x64_1_0_0_1_n_n 128 rfl rfl).symm k) 1).val = (j 1).val := by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl
  refine congrArg₂ (· * ·) ?_ ?_
  · refine (ValueIdx.truncf_apply x0 _ _).trans (h0 _ _ ?_ ?_)
    · show (i 0).val = q * 10000 + _; rw [l0]; exact hi0
    · show k.val = _; exact l1.symm
  · refine (ValueIdx.truncf_apply x1 _ _).trans (h1 _ _ ?_ ?_)
    · show k.val = _; exact r0.symm
    · show (i 1).val = _; rw [r1]; exact hi1

variable (V : (c : Dev nD) → (b : Ref sig .tc) → Buf (Elt Ideal) ((c : Thread nD τ).loc b))

/-- The printed index maps over the ten points: the feature block and the output block are row block `t`, the
    weight matrix is one block. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the host product of the two arrays as the region finds them. -/
theorem flushed0_eq (c : Dev nD) (t : Fin cfg0.N) :
    (dat0 V c).flushed 2 t = ((cfg0.win 2).blk t).view.read (Elt Ideal) (Cert.ReferenceIdeal.Read.val_main_v29 (F := Ideal) (V c main_arg0) (V c main_arg3)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx_facts0 t
  funext j
  show k0_pay1 (F := Ideal) (iblk0 V c 0 t) (iblk0 V c 1 t) j = Cert.ReferenceIdeal.Read.val_main_v29 (F := Ideal) (V c main_arg0) (V c main_arg3) (((cfg0.win 2).blk t).view.emb j)
  refine product_at _ _ _ _ j _ (win0_2.index t (0 : Fin 2)) ?_ ?_ ?_ ?_
  · intro y y' h0 h1
    show V c main_arg0 (((cfg0.win 0).blk t).view.emb y) = V c main_arg0 y'
    refine congrArg (V c main_arg0) (funext fun a => Fin.ext ?_)
    match a with
    | ⟨0, _⟩ => show win0_0.index t (0 : Fin 2) * 10000 + 1 * (y 0).val = (y' 0).val; omega
    | ⟨1, _⟩ => show win0_0.index t (1 : Fin 2) * 128 + 1 * (y 1).val = (y' 1).val; omega
  · intro y y' h0 h1
    show V c main_arg3 (((cfg0.win 1).blk t).view.emb y) = V c main_arg3 y'
    refine congrArg (V c main_arg3) (funext fun a => Fin.ext ?_)
    match a with
    | ⟨0, _⟩ => show win0_1.index t (0 : Fin 2) * 128 + 1 * (y 0).val = (y' 0).val; omega
    | ⟨1, _⟩ => show win0_1.index t (1 : Fin 2) * 64 + 1 * (y 1).val = (y' 1).val; omega
  · show win0_2.index t (0 : Fin 2) * 10000 + 1 * (j 0).val = win0_2.index t (0 : Fin 2) * 10000 + (j 0).val; omega
  · show win0_2.index t (1 : Fin 2) * 64 + 1 * (j 1).val = (j 1).val; omega

/-- An index of the output array is in point `t`'s block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every entry of the output array lies in the block of the point its row block names. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk0]
  obtain ⟨e0, e1, e2, e3, e4, e5⟩ := idx_facts0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- After the region its output array is the host product of the feature array and the weight matrix as the
    region finds them. -/
theorem region0_out (c : Dev nD) :
    (dat0 V c).arrAt 2 cfg0.N = Cert.ReferenceIdeal.Read.val_main_v29 (F := Ideal) (V c main_arg0) (V c main_arg3) :=
  (dat0 V c).arrAt_eq_of_cover 2 _ (fun t _ => flushed0_eq V c t) (cover0)

end Cert.KernelIdeal.Pass

end
-- ==== Proof.Preact1.lean ====
/-
  The second pipelined region: the first layer's activation and the second projection, ten row blocks of 10000 nodes.
  At a grid point the body adds the bias row to the point's 10000 x 64 block of the aggregated messages, takes the
  maximum with zero, and multiplies by the whole 64 x 64 weight matrix into a zero accumulator; the product is
  written back as the point's block of the output. Over the extended reals this is, entry by entry, what the host
  computes on the whole arrays: the bias broadcast over the rows, the maximum with the zero splat, then the
  dot_general — the sum over the 64 contracted coordinates. The bias reaches the region reshaped from [64] to
  [1, 64], which is the same row; row r of the output lies in block r / 10000.
-/
import proofs.«180474_j65481071395054_1_alg».proof.Proof.Gen.KernelIdeal.Frame
import proofs.«180474_j65481071395054_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Pass1

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The body's result at an entry of the block is the host's result on the whole arrays at the entry's place in the
    array, when the message block is rows `q * 10000 …` of the aggregated array, the bias block the bias row and
    the weight block the whole matrix. -/
theorem preact_at (x0 : Vec Ideal S10000x64 .f32) (x2 : Vec Ideal S1x64 .f32) (x9 : Vec Ideal S64x64 .f32)
    (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal))
    (j : S10000x64.Idx) (i : Cert.ReferenceIdeal.S100000x64.Idx) (q : Nat)
    (h0 : ∀ (y : S10000x64.Idx) (y' : Cert.ReferenceIdeal.S100000x64.Idx), (y' 0).val = q * 10000 + (y 0).val → (y' 1).val = (y 1).val →
      x0 y = Cert.ReferenceIdeal.Read.val_main_v42 (F := Ideal) a0 a1 a3 y')
    (h2 : ∀ (y : S1x64.Idx) (y' : Cert.ReferenceIdeal.S64.Idx), (y' 0).val = (y 1).val → x2 y = a4 y')
    (h9 : ∀ (y : S64x64.Idx) (y' : Cert.ReferenceIdeal.S64x64.Idx), (y' 0).val = (y 0).val → (y' 1).val = (y 1).val → x9 y = a5 y')
    (hi0 : (i 0).val = q * 10000 + (j 0).val) (hi1 : (i 1).val = (j 1).val) :
    k1_pay1 (F := Ideal) x0 x2 x9 j = Cert.ReferenceIdeal.Read.val_main_v47 (F := Ideal) a0 a1 a3 a4 a5 i := by
  rw [Cert.ReferenceIdeal.Read.val_main_v47_apply]
  unfold k1_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have l0 : (dot_S10000x64_S64x64_S10000x64_1_0_0_1_n_n.lhsIdx j ((ValueIdx.contrEquiv1 dot_S10000x64_S64x64_S10000x64_1_0_0_1_n_n 64 rfl rfl).symm k) 0).val = (j 0).val := by
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  have l1 : (dot_S10000x64_S64x64_S10000x64_1_0_0_1_n_n.lhsIdx j ((ValueIdx.contrEquiv1 dot_S10000x64_S64x64_S10000x64_1_0_0_1_n_n 64 rfl rfl).symm k) 1).val = k.val :=
    (dot_S10000x64_S64x64_S10000x64_1_0_0_1_n_n.lhsIdx_val_of_single rfl j _).trans hk
  have r0 : (dot_S10000x64_S64x64_S10000x64_1_0_0_1_n_n.rhsIdx j ((ValueIdx.contrEquiv1 dot_S10000x64_S64x64_S10000x64_1_0_0_1_n_n 64 rfl rfl).symm k) 0).val = k.val :=
    (dot_S10000x64_S64x64_S10000x64_1_0_0_1_n_n.rhsIdx_val_of_single rfl j _).trans hk
  have r1 : (dot_S10000x64_S64x64_S10000x64_1_0_0_1_n_n.rhsIdx j ((ValueIdx.contrEquiv1 dot_S10000x64_S64x64_S10000x64_1_0_0_1_n_n 64 rfl rfl).symm k) 1).val = (j 1).val := by
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl
  generalize dot_S10000x64_S64x64_S10000x64_1_0_0_1_n_n.lhsIdx j ((ValueIdx.contrEquiv1 dot_S10000x64_S64x64_S10000x64_1_0_0_1_n_n 64 rfl rfl).symm k) = yl at l0 l1 ⊢
  generalize dot_S10000x64_S64x64_S10000x64_1_0_0_1_n_n.rhsIdx j ((ValueIdx.contrEquiv1 dot_S10000x64_S64x64_S10000x64_1_0_0_1_n_n 64 rfl rfl).symm k) = yr at r0 r1 ⊢
  refine congrArg₂ (· * ·) ?_ ?_
  · rw [Cert.ReferenceIdeal.Read.val_main_v46_apply, Cert.ReferenceIdeal.Read.val_main_v45_apply, Cert.ReferenceIdeal.Read.val_main_v44_apply,
      Cert.ReferenceIdeal.Read.val_main_v43_apply, Cert.ReferenceIdeal.Read.val_main_call0_v0_apply, Cert.ReferenceIdeal.Read.val_main_call0_cst_apply]
    show FloatOps.maximumf (F := Ideal) (FloatOps.addf (F := Ideal) (shapeCast S10000x64 (x0 : S10000x64.Idx → Ideal .f32) shapeCasts_S10000x64_S10000x64 yl)
        (broadcastTo S10000x64 (shapeCast S1x64 (x2 : S1x64.Idx → Ideal .f32) shapeCasts_S1x64_S1x64) broadcasts_S1x64_S10000x64 yl))
      (FloatOps.ofBits (F := Ideal) .f32 0x00000000#32) = _
    refine congrArg₂ FloatOps.maximumf (congrArg₂ FloatOps.addf ?_ ?_) rfl
    · refine (congrFun (shapeCast_self x0 _) yl).trans (h0 yl _ ?_ ?_)
      · show (i 0).val = q * 10000 + _; rw [l0]; exact hi0
      · show k.val = _; exact l1.symm
    · refine (broadcastTo_apply _ _ yl ((fun a => match a with | ⟨0, _⟩ => ⟨0, Nat.one_pos⟩ | ⟨1, _⟩ => ⟨(yl 1).val, (yl 1).isLt⟩) : S1x64.Idx) ?_).trans ?_
      · intro a
        match a with
        | ⟨0, _⟩ => show 0 = if (1 : Nat) = 1 then 0 else _; rw [if_pos rfl]
        | ⟨1, _⟩ => show (yl 1).val = if (64 : Nat) = 1 then 0 else (yl 1).val; rw [if_neg (by decide)]
      · refine (congrFun (shapeCast_self x2 _) _).trans (h2 _ _ ?_)
        show k.val = (yl 1).val; exact l1.symm
  · show x9 yr = _
    refine h9 yr _ ?_ ?_
    · show k.val = _; exact r0.symm
    · show (i 1).val = _; rw [r1]; exact hi1

end Cert.KernelIdeal.Pass1

end
-- ==== Proof.Region1.lean ====
/-
  Region 1's output array from its blocks: the window blocks of a grid point are the rows of that row block of the
  aggregated array, the bias row, and the whole weight matrix; what the point writes back is that row block of the
  host's result (the entrywise reading of the body); the ten row blocks tile the 100000 rows.
-/
import proofs.«180474_j65481071395054_1_alg».proof.Proof.Gen.KernelIdeal.Frame
import proofs.«180474_j65481071395054_1_alg».proof.Proof.Preact1
import Idealize.ShloMosaic.Lib.Pipeline.Value
import Idealize.ShloMosaic.Lib.ValueIdx
import Idealize.ShloMosaic.PureOps.Ideal.Laws

set_option maxRecDepth 16384

noncomputable section

namespace Cert.KernelIdeal.Pass1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten points: the message block and the output block are row block `t`, the
    bias row and the weight matrix are one block each. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Reading a block of the output window back is reading its entries (the window is not cut). -/
theorem cut_eq (P : FVec Ideal S10000x64 .f32) (t : Fin cfg1.N) (j : ((win1 3).xblock (grid1.coords t)).Idx) :
    (win1 3).cut (grid1.coords t) P j = P j := rfl

/-- Block `t` of an array read at an entry is the array at the entry's place. -/
theorem read_eq (G : (⟨Cert.ReferenceIdeal.S100000x64, .f32⟩ : BufTy).Contents (Elt Ideal)) (t : Fin cfg1.N)
    (j : ((win1 3).xblock (grid1.coords t)).Idx) :
    View.read (Elt Ideal) ((View.whole main_v44).slice ((win1 3).rect t)) G j = G (((cfg1.win 3).blk t).view.emb j) := rfl

/-- What point `t` writes back is block `t` of the host's result on the arrays as the region finds them. -/
theorem flushed_eq (c : Dev nD) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal))
    (hA : V c main_v42 = Cert.ReferenceIdeal.Read.val_main_v42 (F := Ideal) a0 a1 a3)
    (hb : V c main_v43 = shapeCast S1x64 (a4 : S64.Idx → EReal) shapeCasts_S64_S1x64)
    (hW : V c main_arg5 = a5) (t : Fin cfg1.N) :
    (dat1 V c).flushed 3 t = ((cfg1.win 3).blk t).view.read (Elt Ideal) (Cert.ReferenceIdeal.Read.val_main_v47 (F := Ideal) a0 a1 a3 a4 a5) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S1x64) hz2, View.ld_unit_zero (S := S64x64) hz2]
  obtain ⟨e0, e1, e2, e3, e4, e5, e6, e7⟩ := idx_facts t
  funext j
  refine (cut_eq _ t j).trans (Eq.trans ?_ (read_eq _ t j).symm)
  refine preact_at (iblk1 V c 0 t) (iblk1 V c 1 t) (iblk1 V c 2 t) a0 a1 a3 a4 a5 j (((cfg1.win 3).blk t).view.emb j) (win1_3.index t (0 : Fin 2)) ?_ ?_ ?_ ?_ ?_
  · intro y y' h0 h1
    show V c main_v42 (((cfg1.win 0).blk t).view.emb y) = _
    rw [hA]
    refine congrArg (Cert.ReferenceIdeal.Read.val_main_v42 (F := Ideal) a0 a1 a3) (funext fun a => Fin.ext ?_)
    match a with
    | ⟨0, _⟩ => show win1_0.index t (0 : Fin 2) * 10000 + 1 * (y 0).val = (y' 0).val; omega
    | ⟨1, _⟩ => show win1_0.index t (1 : Fin 2) * 64 + 1 * (y 1).val = (y' 1).val; omega
  · intro y y' h0
    show V c main_v43 (((cfg1.win 1).blk t).view.emb y) = _
    rw [hb]
    refine shapeCast_apply _ _ _ y' ?_
    rw [Shape.rowMajor_val_one, Shape.rowMajor_val_two]
    show (y' 0).val = (win1_1.index t (0 : Fin 2) * 1 + 1 * (y 0).val) * 64 + (win1_1.index t (1 : Fin 2) * 64 + 1 * (y 1).val)
    have hy0 : (y 0).val < 1 := (y 0).isLt
    omega
  · intro y y' h0 h1
    show V c main_arg5 (((cfg1.win 2).blk t).view.emb y) = _
    rw [hW]
    refine congrArg a5 (funext fun a => Fin.ext ?_)
    match a with
    | ⟨0, _⟩ => show win1_2.index t (0 : Fin 2) * 64 + 1 * (y 0).val = (y' 0).val; omega
    | ⟨1, _⟩ => show win1_2.index t (1 : Fin 2) * 64 + 1 * (y 1).val = (y' 1).val; omega
  · show win1_3.index t (0 : Fin 2) * 10000 + 1 * (j 0).val = win1_3.index t (0 : Fin 2) * 10000 + (j 0).val; omega
  · show win1_3.index t (1 : Fin 2) * 64 + 1 * (j 1).val = (j 1).val; omega

/-- An index of the output array is in point `t`'s block iff each coordinate is in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v44).slice (win1_3.rect t)).set ↔ _
  rw [View.set_slice_whole, Rect.mem_set_unit]
  exact Iff.rfl

/-- Every entry of the output array lies in the block of the point its row block names. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_3 _, ?_⟩
  rw [mem_blk]
  obtain ⟨e0, e1, e2, e3, e4, e5, e6, e7⟩ := idx_facts ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e6]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e7]; omega

/-- After the region its output array is the host's bias, maximum with zero and matrix product of the arrays
    the region finds. -/
theorem region_out (c : Dev nD) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal))
    (hA : V c main_v42 = Cert.ReferenceIdeal.Read.val_main_v42 (F := Ideal) a0 a1 a3)
    (hb : V c main_v43 = shapeCast S1x64 (a4 : S64.Idx → EReal) shapeCasts_S64_S1x64)
    (hW : V c main_arg5 = a5) :
    (dat1 V c).arrAt 3 cfg1.N = Cert.ReferenceIdeal.Read.val_main_v47 (F := Ideal) a0 a1 a3 a4 a5 :=
  (dat1 V c).arrAt_eq_of_cover 3 _ (fun t _ => flushed_eq V c a0 a1 a3 a4 a5 hA hb hW t) (cover)

end Cert.KernelIdeal.Pass1

end
-- ==== Proof.Preact2.lean ====
/-
  The third pipelined region: the second layer's activation and the third projection, ten row blocks of 10000 nodes.
  At a grid point the body adds the bias row to the point's 10000 x 64 block of the aggregated messages, takes the
  maximum with zero, and multiplies by the whole 64 x 64 weight matrix into a zero accumulator; the product is
  written back as the point's block of the output. Over the extended reals this is, entry by entry, what the host
  computes on the whole arrays: the bias broadcast over the rows, the maximum with the zero splat, then the
  dot_general — the sum over the 64 contracted coordinates. The bias reaches the region reshaped from [64] to
  [1, 64], which is the same row; row r of the output lies in block r / 10000.
-/
import proofs.«180474_j65481071395054_1_alg».proof.Proof.Gen.KernelIdeal.Frame
import proofs.«180474_j65481071395054_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Pass2

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The body's result at an entry of the block is the host's result on the whole arrays at the entry's place in the
    array, when the message block is rows `q * 10000 …` of the aggregated array, the bias block the bias row and
    the weight block the whole matrix. -/
theorem preact_at (x0 : Vec Ideal S10000x64 .f32) (x2 : Vec Ideal S1x64 .f32) (x9 : Vec Ideal S64x64 .f32)
    (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal))
    (j : S10000x64.Idx) (i : Cert.ReferenceIdeal.S100000x64.Idx) (q : Nat)
    (h0 : ∀ (y : S10000x64.Idx) (y' : Cert.ReferenceIdeal.S100000x64.Idx), (y' 0).val = q * 10000 + (y 0).val → (y' 1).val = (y 1).val →
      x0 y = Cert.ReferenceIdeal.Read.val_main_v60 (F := Ideal) a0 a1 a3 a4 a5 y')
    (h2 : ∀ (y : S1x64.Idx) (y' : Cert.ReferenceIdeal.S64.Idx), (y' 0).val = (y 1).val → x2 y = a6 y')
    (h9 : ∀ (y : S64x64.Idx) (y' : Cert.ReferenceIdeal.S64x64.Idx), (y' 0).val = (y 0).val → (y' 1).val = (y 1).val → x9 y = a7 y')
    (hi0 : (i 0).val = q * 10000 + (j 0).val) (hi1 : (i 1).val = (j 1).val) :
    k2_pay1 (F := Ideal) x0 x2 x9 j = Cert.ReferenceIdeal.Read.val_main_v65 (F := Ideal) a0 a1 a3 a4 a5 a6 a7 i := by
  rw [Cert.ReferenceIdeal.Read.val_main_v65_apply]
  unfold k2_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have l0 : (dot_S10000x64_S64x64_S10000x64_1_0_0_1_n_n.lhsIdx j ((ValueIdx.contrEquiv1 dot_S10000x64_S64x64_S10000x64_1_0_0_1_n_n 64 rfl rfl).symm k) 0).val = (j 0).val := by
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  have l1 : (dot_S10000x64_S64x64_S10000x64_1_0_0_1_n_n.lhsIdx j ((ValueIdx.contrEquiv1 dot_S10000x64_S64x64_S10000x64_1_0_0_1_n_n 64 rfl rfl).symm k) 1).val = k.val :=
    (dot_S10000x64_S64x64_S10000x64_1_0_0_1_n_n.lhsIdx_val_of_single rfl j _).trans hk
  have r0 : (dot_S10000x64_S64x64_S10000x64_1_0_0_1_n_n.rhsIdx j ((ValueIdx.contrEquiv1 dot_S10000x64_S64x64_S10000x64_1_0_0_1_n_n 64 rfl rfl).symm k) 0).val = k.val :=
    (dot_S10000x64_S64x64_S10000x64_1_0_0_1_n_n.rhsIdx_val_of_single rfl j _).trans hk
  have r1 : (dot_S10000x64_S64x64_S10000x64_1_0_0_1_n_n.rhsIdx j ((ValueIdx.contrEquiv1 dot_S10000x64_S64x64_S10000x64_1_0_0_1_n_n 64 rfl rfl).symm k) 1).val = (j 1).val := by
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl
  generalize dot_S10000x64_S64x64_S10000x64_1_0_0_1_n_n.lhsIdx j ((ValueIdx.contrEquiv1 dot_S10000x64_S64x64_S10000x64_1_0_0_1_n_n 64 rfl rfl).symm k) = yl at l0 l1 ⊢
  generalize dot_S10000x64_S64x64_S10000x64_1_0_0_1_n_n.rhsIdx j ((ValueIdx.contrEquiv1 dot_S10000x64_S64x64_S10000x64_1_0_0_1_n_n 64 rfl rfl).symm k) = yr at r0 r1 ⊢
  refine congrArg₂ (· * ·) ?_ ?_
  · rw [Cert.ReferenceIdeal.Read.val_main_v64_apply, Cert.ReferenceIdeal.Read.val_main_v63_apply, Cert.ReferenceIdeal.Read.val_main_v62_apply,
      Cert.ReferenceIdeal.Read.val_main_v61_apply, Cert.ReferenceIdeal.Read.val_main_call1_v0_apply, Cert.ReferenceIdeal.Read.val_main_call1_cst_apply]
    show FloatOps.maximumf (F := Ideal) (FloatOps.addf (F := Ideal) (shapeCast S10000x64 (x0 : S10000x64.Idx → Ideal .f32) shapeCasts_S10000x64_S10000x64 yl)
        (broadcastTo S10000x64 (shapeCast S1x64 (x2 : S1x64.Idx → Ideal .f32) shapeCasts_S1x64_S1x64) broadcasts_S1x64_S10000x64 yl))
      (FloatOps.ofBits (F := Ideal) .f32 0x00000000#32) = _
    refine congrArg₂ FloatOps.maximumf (congrArg₂ FloatOps.addf ?_ ?_) rfl
    · refine (congrFun (shapeCast_self x0 _) yl).trans (h0 yl _ ?_ ?_)
      · show (i 0).val = q * 10000 + _; rw [l0]; exact hi0
      · show k.val = _; exact l1.symm
    · refine (broadcastTo_apply _ _ yl ((fun a => match a with | ⟨0, _⟩ => ⟨0, Nat.one_pos⟩ | ⟨1, _⟩ => ⟨(yl 1).val, (yl 1).isLt⟩) : S1x64.Idx) ?_).trans ?_
      · intro a
        match a with
        | ⟨0, _⟩ => show 0 = if (1 : Nat) = 1 then 0 else _; rw [if_pos rfl]
        | ⟨1, _⟩ => show (yl 1).val = if (64 : Nat) = 1 then 0 else (yl 1).val; rw [if_neg (by decide)]
      · refine (congrFun (shapeCast_self x2 _) _).trans (h2 _ _ ?_)
        show k.val = (yl 1).val; exact l1.symm
  · show x9 yr = _
    refine h9 yr _ ?_ ?_
    · show k.val = _; exact r0.symm
    · show (i 1).val = _; rw [r1]; exact hi1

end Cert.KernelIdeal.Pass2

end
-- ==== Proof.Region2.lean ====
/-
  Region 2's output array from its blocks: the window blocks of a grid point are the rows of that row block of the
  aggregated array, the bias row, and the whole weight matrix; what the point writes back is that row block of the
  host's result (the entrywise reading of the body); the ten row blocks tile the 100000 rows.
-/
import proofs.«180474_j65481071395054_1_alg».proof.Proof.Gen.KernelIdeal.Frame
import proofs.«180474_j65481071395054_1_alg».proof.Proof.Preact2
import Idealize.ShloMosaic.Lib.Pipeline.Value
import Idealize.ShloMosaic.Lib.ValueIdx
import Idealize.ShloMosaic.PureOps.Ideal.Laws

set_option maxRecDepth 16384

noncomputable section

namespace Cert.KernelIdeal.Pass2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The printed index maps over the ten points: the message block and the output block are row block `t`, the
    bias row and the weight matrix are one block each. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Reading a block of the output window back is reading its entries (the window is not cut). -/
theorem cut_eq (P : FVec Ideal S10000x64 .f32) (t : Fin cfg2.N) (j : ((win2 3).xblock (grid2.coords t)).Idx) :
    (win2 3).cut (grid2.coords t) P j = P j := rfl

/-- Block `t` of an array read at an entry is the array at the entry's place. -/
theorem read_eq (G : (⟨Cert.ReferenceIdeal.S100000x64, .f32⟩ : BufTy).Contents (Elt Ideal)) (t : Fin cfg2.N)
    (j : ((win2 3).xblock (grid2.coords t)).Idx) :
    View.read (Elt Ideal) ((View.whole main_v59).slice ((win2 3).rect t)) G j = G (((cfg2.win 3).blk t).view.emb j) := rfl

/-- What point `t` writes back is block `t` of the host's result on the arrays as the region finds them. -/
theorem flushed_eq (c : Dev nD) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal))
    (hA : V c main_v57 = Cert.ReferenceIdeal.Read.val_main_v60 (F := Ideal) a0 a1 a3 a4 a5)
    (hb : V c main_v58 = shapeCast S1x64 (a6 : S64.Idx → EReal) shapeCasts_S64_S1x64)
    (hW : V c main_arg7 = a7) (t : Fin cfg2.N) :
    (dat2 V c).flushed 3 t = ((cfg2.win 3).blk t).view.read (Elt Ideal) (Cert.ReferenceIdeal.Read.val_main_v65 (F := Ideal) a0 a1 a3 a4 a5 a6 a7) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S1x64) hz2, View.ld_unit_zero (S := S64x64) hz2]
  obtain ⟨e0, e1, e2, e3, e4, e5, e6, e7⟩ := idx_facts t
  funext j
  refine (cut_eq _ t j).trans (Eq.trans ?_ (read_eq _ t j).symm)
  refine preact_at (iblk2 V c 0 t) (iblk2 V c 1 t) (iblk2 V c 2 t) a0 a1 a3 a4 a5 a6 a7 j (((cfg2.win 3).blk t).view.emb j) (win2_3.index t (0 : Fin 2)) ?_ ?_ ?_ ?_ ?_
  · intro y y' h0 h1
    show V c main_v57 (((cfg2.win 0).blk t).view.emb y) = _
    rw [hA]
    refine congrArg (Cert.ReferenceIdeal.Read.val_main_v60 (F := Ideal) a0 a1 a3 a4 a5) (funext fun a => Fin.ext ?_)
    match a with
    | ⟨0, _⟩ => show win2_0.index t (0 : Fin 2) * 10000 + 1 * (y 0).val = (y' 0).val; omega
    | ⟨1, _⟩ => show win2_0.index t (1 : Fin 2) * 64 + 1 * (y 1).val = (y' 1).val; omega
  · intro y y' h0
    show V c main_v58 (((cfg2.win 1).blk t).view.emb y) = _
    rw [hb]
    refine shapeCast_apply _ _ _ y' ?_
    rw [Shape.rowMajor_val_one, Shape.rowMajor_val_two]
    show (y' 0).val = (win2_1.index t (0 : Fin 2) * 1 + 1 * (y 0).val) * 64 + (win2_1.index t (1 : Fin 2) * 64 + 1 * (y 1).val)
    have hy0 : (y 0).val < 1 := (y 0).isLt
    omega
  · intro y y' h0 h1
    show V c main_arg7 (((cfg2.win 2).blk t).view.emb y) = _
    rw [hW]
    refine congrArg a7 (funext fun a => Fin.ext ?_)
    match a with
    | ⟨0, _⟩ => show win2_2.index t (0 : Fin 2) * 64 + 1 * (y 0).val = (y' 0).val; omega
    | ⟨1, _⟩ => show win2_2.index t (1 : Fin 2) * 64 + 1 * (y 1).val = (y' 1).val; omega
  · show win2_3.index t (0 : Fin 2) * 10000 + 1 * (j 0).val = win2_3.index t (0 : Fin 2) * 10000 + (j 0).val; omega
  · show win2_3.index t (1 : Fin 2) * 64 + 1 * (j 1).val = (j 1).val; omega

/-- An index of the output array is in point `t`'s block iff each coordinate is in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v59).slice (win2_3.rect t)).set ↔ _
  rw [View.set_slice_whole, Rect.mem_set_unit]
  exact Iff.rfl

/-- Every entry of the output array lies in the block of the point its row block names. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_3 _, ?_⟩
  rw [mem_blk]
  obtain ⟨e0, e1, e2, e3, e4, e5, e6, e7⟩ := idx_facts ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e6]; show (i 0).val / 10000 * 10000 ≤ (i 0).val ∧ (i 0).val < (i 0).val / 10000 * 10000 + 10000; omega
  | ⟨1, _⟩ =>
    show win2_3.index _ (1 : Fin 2) * 64 ≤ (i 1).val ∧ (i 1).val < win2_3.index _ (1 : Fin 2) * 64 + 64
    rw [e7]; omega

/-- After the region its output array is the host's bias, maximum with zero and matrix product of the arrays
    the region finds. -/
theorem region_out (c : Dev nD) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal))
    (hA : V c main_v57 = Cert.ReferenceIdeal.Read.val_main_v60 (F := Ideal) a0 a1 a3 a4 a5)
    (hb : V c main_v58 = shapeCast S1x64 (a6 : S64.Idx → EReal) shapeCasts_S64_S1x64)
    (hW : V c main_arg7 = a7) :
    (dat2 V c).arrAt 3 cfg2.N = Cert.ReferenceIdeal.Read.val_main_v65 (F := Ideal) a0 a1 a3 a4 a5 a6 a7 :=
  (dat2 V c).arrAt_eq_of_cover 3 _ (fun t _ => flushed_eq V c a0 a1 a3 a4 a5 a6 a7 hA hb hW t) (cover)

end Cert.KernelIdeal.Pass2

end
-- ==== Proof.Region3.lean ====
/-
  The fourth pipelined region: the last layer's bias, ten row blocks of 10000 nodes. At a grid point the body adds
  the bias row to the point's 10000 x 64 block of the aggregated messages and writes the sum back as the point's
  block of the output. Entry by entry this is the host's sum of the aggregated array and the bias broadcast over the
  rows; the bias reaches the region reshaped from [64] to [1, 64], the same row; row r lies in block r / 10000.
-/
import proofs.«180474_j65481071395054_1_alg».proof.Proof.Gen.KernelIdeal.Frame
import proofs.«180474_j65481071395054_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Pass3

open Cert.KernelIdeal Cert.KernelIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The body's sum at an entry of the block is the host's sum on the whole arrays at the entry's place in the
    array, when the message block is rows `q * 10000 …` of the aggregated array and the bias block the bias row. -/
theorem bias_at (x0 : Vec Ideal S10000x64 .f32) (x2 : Vec Ideal S1x64 .f32)
    (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal))
    (j : S10000x64.Idx) (i : Cert.ReferenceIdeal.S100000x64.Idx) (q : Nat)
    (h0 : ∀ (y : S10000x64.Idx) (y' : Cert.ReferenceIdeal.S100000x64.Idx), (y' 0).val = q * 10000 + (y 0).val → (y' 1).val = (y 1).val →
      x0 y = Cert.ReferenceIdeal.Read.val_main_v78 (F := Ideal) a0 a1 a3 a4 a5 a6 a7 y')
    (h2 : ∀ (y : S1x64.Idx) (y' : Cert.ReferenceIdeal.S64.Idx), (y' 0).val = (y 1).val → x2 y = a8 y')
    (hi0 : (i 0).val = q * 10000 + (j 0).val) (hi1 : (i 1).val = (j 1).val) :
    k3_pay1 (F := Ideal) x0 x2 j = Cert.ReferenceIdeal.Read.val_main_v81 (F := Ideal) a0 a1 a3 a4 a5 a6 a7 a8 i := by
  rw [Cert.ReferenceIdeal.Read.val_main_v81_apply, Cert.ReferenceIdeal.Read.val_main_v80_apply, Cert.ReferenceIdeal.Read.val_main_v79_apply]
  unfold k3_pay1
  refine congrArg₂ FloatOps.addf ?_ ?_
  · refine (congrFun (shapeCast_self x0 _) j).trans (h0 j _ hi0 hi1)
  · refine (broadcastTo_apply _ _ j ((fun a => match a with | ⟨0, _⟩ => ⟨0, Nat.one_pos⟩ | ⟨1, _⟩ => ⟨(j 1).val, (j 1).isLt⟩) : S1x64.Idx) ?_).trans ?_
    · intro a
      match a with
      | ⟨0, _⟩ => show 0 = if (1 : Nat) = 1 then 0 else _; rw [if_pos rfl]
      | ⟨1, _⟩ => show (j 1).val = if (64 : Nat) = 1 then 0 else (j 1).val; rw [if_neg (by decide)]
    · refine (congrFun (shapeCast_self x2 _) _).trans (h2 _ _ ?_)
      show (i 1).val = (j 1).val; exact hi1

variable (V : (c : Dev nD) → (b : Ref sig .tc) → Buf (Elt Ideal) ((c : Thread nD τ).loc b))

/-- The printed index maps over the ten points: the message block and the output block are row block `t`, the
    bias row is one block. -/
theorem idx_facts : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Reading a block of the output window back is reading its entries (the window is not cut). -/
theorem cut_eq (P : FVec Ideal S10000x64 .f32) (t : Fin cfg3.N) (j : ((win3 2).xblock (grid3.coords t)).Idx) :
    (win3 2).cut (grid3.coords t) P j = P j := rfl

/-- Block `t` of an array read at an entry is the array at the entry's place. -/
theorem read_eq (G : (⟨Cert.ReferenceIdeal.S100000x64, .f32⟩ : BufTy).Contents (Elt Ideal)) (t : Fin cfg3.N)
    (j : ((win3 2).xblock (grid3.coords t)).Idx) :
    View.read (Elt Ideal) ((View.whole main_v74).slice ((win3 2).rect t)) G j = G (((cfg3.win 2).blk t).view.emb j) := rfl

/-- What point `t` writes back is block `t` of the host's sum on the arrays as the region finds them. -/
theorem flushed_eq (c : Dev nD) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal))
    (hA : V c main_v72 = Cert.ReferenceIdeal.Read.val_main_v78 (F := Ideal) a0 a1 a3 a4 a5 a6 a7)
    (hb : V c main_v73 = shapeCast S1x64 (a8 : S64.Idx → EReal) shapeCasts_S64_S1x64) (t : Fin cfg3.N) :
    (dat3 V c).flushed 2 t = ((cfg3.win 2).blk t).view.read (Elt Ideal) (Cert.ReferenceIdeal.Read.val_main_v81 (F := Ideal) a0 a1 a3 a4 a5 a6 a7 a8) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S1x64) hz2]
  obtain ⟨e0, e1, e2, e3, e4, e5⟩ := idx_facts t
  funext j
  refine (cut_eq _ t j).trans (Eq.trans ?_ (read_eq _ t j).symm)
  refine bias_at (iblk3 V c 0 t) (iblk3 V c 1 t) a0 a1 a3 a4 a5 a6 a7 a8 j (((cfg3.win 2).blk t).view.emb j) (win3_2.index t (0 : Fin 2)) ?_ ?_ ?_ ?_
  · intro y y' h0 h1
    show V c main_v72 (((cfg3.win 0).blk t).view.emb y) = _
    rw [hA]
    refine congrArg (Cert.ReferenceIdeal.Read.val_main_v78 (F := Ideal) a0 a1 a3 a4 a5 a6 a7) (funext fun a => Fin.ext ?_)
    match a with
    | ⟨0, _⟩ => show win3_0.index t (0 : Fin 2) * 10000 + 1 * (y 0).val = (y' 0).val; omega
    | ⟨1, _⟩ => show win3_0.index t (1 : Fin 2) * 64 + 1 * (y 1).val = (y' 1).val; omega
  · intro y y' h0
    show V c main_v73 (((cfg3.win 1).blk t).view.emb y) = _
    rw [hb]
    refine shapeCast_apply _ _ _ y' ?_
    rw [Shape.rowMajor_val_one, Shape.rowMajor_val_two]
    show (y' 0).val = (win3_1.index t (0 : Fin 2) * 1 + 1 * (y 0).val) * 64 + (win3_1.index t (1 : Fin 2) * 64 + 1 * (y 1).val)
    have hy0 : (y 0).val < 1 := (y 0).isLt
    omega
  · show win3_2.index t (0 : Fin 2) * 10000 + 1 * (j 0).val = win3_2.index t (0 : Fin 2) * 10000 + (j 0).val; omega
  · show win3_2.index t (1 : Fin 2) * 64 + 1 * (j 1).val = (j 1).val; omega

/-- An index of the output array is in point `t`'s block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v74).slice (win3_2.rect t)).set ↔ _
  rw [View.set_slice_whole, Rect.mem_set_unit]
  exact Iff.rfl

/-- Every entry of the output array lies in the block of the point its row block names. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_2 _, ?_⟩
  rw [mem_blk]
  obtain ⟨e0, e1, e2, e3, e4, e5⟩ := idx_facts ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 64 ≤ (i 1).val ∧ (i 1).val < win3_2.index _ (1 : Fin 2) * 64 + 64
    rw [e5]; omega

/-- After the region its output array is the host's sum of the aggregated array and the broadcast bias. -/
theorem region_out (c : Dev nD) (a0 : (⟨Cert.ReferenceIdeal.S100000x128, .f32⟩ : BufTy).Contents (Elt Ideal)) (a1 : (⟨Cert.ReferenceIdeal.S2x1600000, .i32⟩ : BufTy).Contents (Elt Ideal)) (a3 : (⟨Cert.ReferenceIdeal.S128x64, .f32⟩ : BufTy).Contents (Elt Ideal)) (a4 : (⟨Cert.ReferenceIdeal.S64, .f32⟩ : BufTy).Contents (Elt Ideal)) (a5 : (⟨Cert.ReferenceIdeal.S64x64, .f32⟩ : BufTy).Contents (Elt Ideal)) (a6 : (⟨Cert.ReferenceIdeal.S64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal))
    (hA : V c main_v72 = Cert.ReferenceIdeal.Read.val_main_v78 (F := Ideal) a0 a1 a3 a4 a5 a6 a7)
    (hb : V c main_v73 = shapeCast S1x64 (a8 : S64.Idx → EReal) shapeCasts_S64_S1x64) :
    (dat3 V c).arrAt 2 cfg3.N = Cert.ReferenceIdeal.Read.val_main_v81 (F := Ideal) a0 a1 a3 a4 a5 a6 a7 a8 :=
  (dat3 V c).arrAt_eq_of_cover 2 _ (fun t _ => flushed_eq V c a0 a1 a3 a4 a5 a6 a7 a8 hA hb t) (cover)

end Cert.KernelIdeal.Pass3

end
-- ==== Proof.LibAfterSplit.lean ====
/-
  A straight line of host operations run in two parts.
-/
import Idealize.ShloMosaic.Lib.StableHlo.Run

noncomputable section

namespace Cert.LibAfterSplit

open Idealize.ShloMosaic Idealize.ShloMosaic.StableHlo

/-- The buffer contents after a line of host operations run from a valuation `V` are the contents after the line's
    operations from the `k`-th on, run from what its first `k` operations leave of `V` (`StableHlo.after` is a left fold:
    by induction on `k`, the list split at its head). For any topology, signature and value type. -/
theorem after_take_drop {τ : Topo} {sig : RefSig} {Val : EltTy → Type} (k : Nat) :
    ∀ (l : List (HloOp τ sig Val)) (V : Valuation τ sig Val), after l V = after (l.drop k) (after (l.take k) V) := by
  induction k with
  | zero => intro l V; rfl
  | succ k ih =>
    intro l V
    cases l with
    | nil => rfl
    | cons op l => exact ih l (op.result V)

end Cert.LibAfterSplit

end
-- ==== Proof.Boundaries.lean ====
/-
  The contents of the buffers at the boundaries between the kernel program's segments, as the reference's stages.
  Both programs do the same host work around the dense layers: the source and destination index vectors with the
  self loops appended, the symmetric normalisation from the in-degrees, and per layer the gather of the projected
  rows along the sources, the scaling by the normalisation, the scatter-add along the destinations; then the mean
  pool over the graphs and the centroid distances. The kernel program does each dense layer in a pipelined region,
  the reference by a host dot_general with the bias and the maximum with zero as host operations. Walking the
  kernel program's boundaries in order, every buffer a later segment reads holds the reference's stage of the same
  name: a host stretch applies the same operations to equal operands, a region's output is the reference's dense
  stage (the region modules), and a buffer nothing writes keeps its contents.
-/
import proofs.«180474_j65481071395054_1_alg».proof.Proof.Region0
import proofs.«180474_j65481071395054_1_alg».proof.Proof.Region1
import proofs.«180474_j65481071395054_1_alg».proof.Proof.Region2
import proofs.«180474_j65481071395054_1_alg».proof.Proof.Region3
import proofs.«180474_j65481071395054_1_alg».proof.Proof.LibAfterSplit
import Idealize.ShloMosaic.Lib.StableHlo.Run

set_option maxRecDepth 16384

noncomputable section

namespace Cert.KernelIdeal.Pass

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument 0 as launched. -/
abbrev A0 : (⟨Cert.ReferenceIdeal.S100000x128, .f32⟩ : BufTy).Contents (Elt Ideal) := m ((c.tc : Thread nD τ).loc main_arg0)
/-- Argument 1 as launched. -/
abbrev A1 : (⟨Cert.ReferenceIdeal.S2x1600000, .i32⟩ : BufTy).Contents (Elt Ideal) := m ((c.tc : Thread nD τ).loc main_arg1)
/-- Argument 2 as launched. -/
abbrev A2 : (⟨Cert.ReferenceIdeal.S100000, .i32⟩ : BufTy).Contents (Elt Ideal) := m ((c.tc : Thread nD τ).loc main_arg2)
/-- Argument 3 as launched. -/
abbrev A3 : (⟨Cert.ReferenceIdeal.S128x64, .f32⟩ : BufTy).Contents (Elt Ideal) := m ((c.tc : Thread nD τ).loc main_arg3)
/-- Argument 4 as launched. -/
abbrev A4 : (⟨Cert.ReferenceIdeal.S64, .f32⟩ : BufTy).Contents (Elt Ideal) := m ((c.tc : Thread nD τ).loc main_arg4)
/-- Argument 5 as launched. -/
abbrev A5 : (⟨Cert.ReferenceIdeal.S64x64, .f32⟩ : BufTy).Contents (Elt Ideal) := m ((c.tc : Thread nD τ).loc main_arg5)
/-- Argument 6 as launched. -/
abbrev A6 : (⟨Cert.ReferenceIdeal.S64, .f32⟩ : BufTy).Contents (Elt Ideal) := m ((c.tc : Thread nD τ).loc main_arg6)
/-- Argument 7 as launched. -/
abbrev A7 : (⟨Cert.ReferenceIdeal.S64x64, .f32⟩ : BufTy).Contents (Elt Ideal) := m ((c.tc : Thread nD τ).loc main_arg7)
/-- Argument 8 as launched. -/
abbrev A8 : (⟨Cert.ReferenceIdeal.S64, .f32⟩ : BufTy).Contents (Elt Ideal) := m ((c.tc : Thread nD τ).loc main_arg8)
/-- Argument 9 as launched. -/
abbrev A9 : (⟨Cert.ReferenceIdeal.S48x64, .f32⟩ : BufTy).Contents (Elt Ideal) := m ((c.tc : Thread nD τ).loc main_arg9)
/-- Argument 10 as launched. -/
abbrev A10 : (⟨Cert.ReferenceIdeal.S1, .f32⟩ : BufTy).Contents (Elt Ideal) := m ((c.tc : Thread nD τ).loc main_arg10)

/-- What the later segments read and no region writes: the two index vectors, the normalisation, and the arguments
    the host stretches read, each at the reference's stage of the launch arguments. -/
structure Carried (W : Valuation τ sig (Elt Ideal)) : Prop where
  v3 : W (Proc.devRef .tc main_v3) = Cert.ReferenceIdeal.Read.val_main_v3 (F := Ideal) (A1 m c)
  v6 : W (Proc.devRef .tc main_v6) = Cert.ReferenceIdeal.Read.val_main_v6 (F := Ideal) (A1 m c)
  v28 : W (Proc.devRef .tc main_v28) = Cert.ReferenceIdeal.Read.val_main_v28 (F := Ideal) (A1 m c)
  a2 : W (Proc.devRef .tc main_arg2) = A2 m c
  a4 : W (Proc.devRef .tc main_arg4) = A4 m c
  a6 : W (Proc.devRef .tc main_arg6) = A6 m c
  a8 : W (Proc.devRef .tc main_arg8) = A8 m c
  a9 : W (Proc.devRef .tc main_arg9) = A9 m c
  a10 : W (Proc.devRef .tc main_arg10) = A10 m c

/-- Host stretch 1 writes none of the carried buffers. -/
theorem carried_host1 {W : Valuation τ sig (Elt Ideal)} (h : Carried m c W) : Carried m c (StableHlo.after hostOps1 W) := by
  obtain ⟨h1, h2, h3, h4, h5, h6, h7, h8, h9⟩ := h
  refine ⟨?_, ?_, ?_, ?_, ?_, ?_, ?_, ?_, ?_⟩
  all_goals (dsimp only [hostOps1]; after_results_simp)
  all_goals assumption

/-- Host stretch 2 writes none of the carried buffers. -/
theorem carried_host2 {W : Valuation τ sig (Elt Ideal)} (h : Carried m c W) : Carried m c (StableHlo.after hostOps2 W) := by
  obtain ⟨h1, h2, h3, h4, h5, h6, h7, h8, h9⟩ := h
  refine ⟨?_, ?_, ?_, ?_, ?_, ?_, ?_, ?_, ?_⟩
  all_goals (dsimp only [hostOps2]; after_results_simp)
  all_goals assumption

/-- Host stretch 3 writes none of the carried buffers. -/
theorem carried_host3 {W : Valuation τ sig (Elt Ideal)} (h : Carried m c W) : Carried m c (StableHlo.after hostOps3 W) := by
  obtain ⟨h1, h2, h3, h4, h5, h6, h7, h8, h9⟩ := h
  refine ⟨?_, ?_, ?_, ?_, ?_, ?_, ?_, ?_, ?_⟩
  all_goals (dsimp only [hostOps3]; after_results_simp)
  all_goals assumption

/-- Region 0 has none of the carried buffers among its arrays. -/
theorem carried_region0 {W : Valuation τ sig (Elt Ideal)} (h : Carried m c W) (f) : Carried m c (Pipeline.withArrays spec0 c W f) := by
  obtain ⟨h1, h2, h3, h4, h5, h6, h7, h8, h9⟩ := h
  refine ⟨?_, ?_, ?_, ?_, ?_, ?_, ?_, ?_, ?_⟩
  all_goals (rw [Pipeline.withArrays_of_ne spec0 c _ _ _ (by decide)]; assumption)

/-- Region 1 has none of the carried buffers among its arrays. -/
theorem carried_region1 {W : Valuation τ sig (Elt Ideal)} (h : Carried m c W) (f) : Carried m c (Pipeline.withArrays spec1 c W f) := by
  obtain ⟨h1, h2, h3, h4, h5, h6, h7, h8, h9⟩ := h
  refine ⟨?_, ?_, ?_, ?_, ?_, ?_, ?_, ?_, ?_⟩
  all_goals (rw [Pipeline.withArrays_of_ne spec1 c _ _ _ (by decide)]; assumption)

/-- Region 2 has none of the carried buffers among its arrays. -/
theorem carried_region2 {W : Valuation τ sig (Elt Ideal)} (h : Carried m c W) (f) : Carried m c (Pipeline.withArrays spec2 c W f) := by
  obtain ⟨h1, h2, h3, h4, h5, h6, h7, h8, h9⟩ := h
  refine ⟨?_, ?_, ?_, ?_, ?_, ?_, ?_, ?_, ?_⟩
  all_goals (rw [Pipeline.withArrays_of_ne spec2 c _ _ _ (by decide)]; assumption)

/-- Region 3 has none of the carried buffers among its arrays. -/
theorem carried_region3 {W : Valuation τ sig (Elt Ideal)} (h : Carried m c W) (f) : Carried m c (Pipeline.withArrays spec3 c W f) := by
  obtain ⟨h1, h2, h3, h4, h5, h6, h7, h8, h9⟩ := h
  refine ⟨?_, ?_, ?_, ?_, ?_, ?_, ?_, ?_, ?_⟩
  all_goals (rw [Pipeline.withArrays_of_ne spec3 c _ _ _ (by decide)]; assumption)

/-! ## After the first host stretch -/

theorem carried1 : Carried m c (W1 m ρ c) := by
  refine ⟨?_, ?_, ?_, ?_, ?_, ?_, ?_, ?_, ?_⟩
  all_goals (dsimp only [W1, hostOps0]; after_results_simp)
  all_goals rfl

theorem arg0_1 : W1 m ρ c (Proc.devRef .tc main_arg0) = A0 m c := by
  dsimp only [W1, hostOps0]; after_results_simp
theorem arg3_1 : W1 m ρ c (Proc.devRef .tc main_arg3) = A3 m c := by
  dsimp only [W1, hostOps0]; after_results_simp
theorem arg5_1 : W1 m ρ c (Proc.devRef .tc main_arg5) = A5 m c := by
  dsimp only [W1, hostOps0]; after_results_simp
theorem arg7_1 : W1 m ρ c (Proc.devRef .tc main_arg7) = A7 m c := by
  dsimp only [W1, hostOps0]; after_results_simp

/-! ## After the first region: the first projection -/

theorem v29_2 : W2 m ρ c (Proc.devRef .tc main_v29) = Cert.ReferenceIdeal.Read.val_main_v29 (F := Ideal) (A0 m c) (A3 m c) := by
  refine (W2_arr m ρ c 2).trans ((region0_out (V1 m ρ) c).trans ?_)
  show Cert.ReferenceIdeal.Read.val_main_v29 (F := Ideal) (W1 m ρ c (Proc.devRef .tc main_arg0)) (W1 m ρ c (Proc.devRef .tc main_arg3)) = _
  rw [arg0_1, arg3_1]
theorem carried2 : Carried m c (W2 m ρ c) := carried_region0 m c (carried1 m ρ c) _
theorem arg5_2 : W2 m ρ c (Proc.devRef .tc main_arg5) = A5 m c := (W2_of_ne m ρ c main_arg5 (by decide)).trans (arg5_1 m ρ c)
theorem arg7_2 : W2 m ρ c (Proc.devRef .tc main_arg7) = A7 m c := (W2_of_ne m ρ c main_arg7 (by decide)).trans (arg7_1 m ρ c)

/-! ## After the second host stretch: the first aggregation and the first bias row -/

theorem v42_3 : W3 m ρ c (Proc.devRef .tc main_v42) = Cert.ReferenceIdeal.Read.val_main_v42 (F := Ideal) (A0 m c) (A1 m c) (A3 m c) := by
  dsimp only [W3, hostOps1]; after_results_simp
  rw [(carried2 m ρ c).v3, (carried2 m ρ c).v6, (carried2 m ρ c).v28, v29_2]
  simp only [Cert.ReferenceIdeal.Read.val_main_v42, Cert.ReferenceIdeal.Read.val_main_v41, Cert.ReferenceIdeal.Read.val_main_v40, Cert.ReferenceIdeal.Read.val_main_cst_7, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_c_6, Cert.ReferenceIdeal.Read.val_main_v31, Cert.ReferenceIdeal.Read.val_main_v30, Cert.ReferenceIdeal.Read.val_main_c_5]
  all_goals rfl
theorem v43_3 : W3 m ρ c (Proc.devRef .tc main_v43) = shapeCast S1x64 (A4 m c : S64.Idx → EReal) shapeCasts_S64_S1x64 := by
  dsimp only [W3, hostOps1]; after_results_simp
  rw [(carried2 m ρ c).a4]
  rfl
theorem carried3 : Carried m c (W3 m ρ c) := carried_host1 m c (carried2 m ρ c)
theorem arg5_3 : W3 m ρ c (Proc.devRef .tc main_arg5) = A5 m c := by
  dsimp only [W3, hostOps1]; after_results_simp; exact arg5_2 m ρ c
theorem arg7_3 : W3 m ρ c (Proc.devRef .tc main_arg7) = A7 m c := by
  dsimp only [W3, hostOps1]; after_results_simp; exact arg7_2 m ρ c

/-! ## After the second region: the second projection -/

theorem v44_4 : W4 m ρ c (Proc.devRef .tc main_v44) = Cert.ReferenceIdeal.Read.val_main_v47 (F := Ideal) (A0 m c) (A1 m c) (A3 m c) (A4 m c) (A5 m c) :=
  (W4_arr m ρ c 3).trans (Cert.KernelIdeal.Pass1.region_out (V3 m ρ) c (A0 m c) (A1 m c) (A3 m c) (A4 m c) (A5 m c) (v42_3 m ρ c) (v43_3 m ρ c) (arg5_3 m ρ c))
theorem carried4 : Carried m c (W4 m ρ c) := carried_region1 m c (carried3 m ρ c) _
theorem arg7_4 : W4 m ρ c (Proc.devRef .tc main_arg7) = A7 m c := (W4_of_ne m ρ c main_arg7 (by decide)).trans (arg7_3 m ρ c)

/-! ## After the third host stretch: the second aggregation and the second bias row -/

theorem v57_5 : W5 m ρ c (Proc.devRef .tc main_v57) = Cert.ReferenceIdeal.Read.val_main_v60 (F := Ideal) (A0 m c) (A1 m c) (A3 m c) (A4 m c) (A5 m c) := by
  dsimp only [W5, hostOps2]; after_results_simp
  rw [(carried4 m ρ c).v3, (carried4 m ρ c).v6, (carried4 m ρ c).v28, v44_4]
  simp only [Cert.ReferenceIdeal.Read.val_main_v60, Cert.ReferenceIdeal.Read.val_main_v59, Cert.ReferenceIdeal.Read.val_main_v58, Cert.ReferenceIdeal.Read.val_main_cst_10, Cert.ReferenceIdeal.Read.val_main_v57, Cert.ReferenceIdeal.Read.val_main_v56, Cert.ReferenceIdeal.Read.val_main_v55, Cert.ReferenceIdeal.Read.val_main_v54, Cert.ReferenceIdeal.Read.val_main_v53, Cert.ReferenceIdeal.Read.val_main_v52, Cert.ReferenceIdeal.Read.val_main_v51, Cert.ReferenceIdeal.Read.val_main_v50, Cert.ReferenceIdeal.Read.val_main_c_9, Cert.ReferenceIdeal.Read.val_main_v49, Cert.ReferenceIdeal.Read.val_main_v48, Cert.ReferenceIdeal.Read.val_main_c_8]
  all_goals rfl
theorem v58_5 : W5 m ρ c (Proc.devRef .tc main_v58) = shapeCast S1x64 (A6 m c : S64.Idx → EReal) shapeCasts_S64_S1x64 := by
  dsimp only [W5, hostOps2]; after_results_simp
  rw [(carried4 m ρ c).a6]
  rfl
theorem carried5 : Carried m c (W5 m ρ c) := carried_host2 m c (carried4 m ρ c)
theorem arg7_5 : W5 m ρ c (Proc.devRef .tc main_arg7) = A7 m c := by
  dsimp only [W5, hostOps2]; after_results_simp; exact arg7_4 m ρ c

/-! ## After the third region: the third projection -/

theorem v59_6 : W6 m ρ c (Proc.devRef .tc main_v59) = Cert.ReferenceIdeal.Read.val_main_v65 (F := Ideal) (A0 m c) (A1 m c) (A3 m c) (A4 m c) (A5 m c) (A6 m c) (A7 m c) :=
  (W6_arr m ρ c 3).trans (Cert.KernelIdeal.Pass2.region_out (V5 m ρ) c (A0 m c) (A1 m c) (A3 m c) (A4 m c) (A5 m c) (A6 m c) (A7 m c) (v57_5 m ρ c) (v58_5 m ρ c) (arg7_5 m ρ c))
theorem carried6 : Carried m c (W6 m ρ c) := carried_region2 m c (carried5 m ρ c) _

/-! ## After the fourth host stretch: the third aggregation and the third bias row -/

theorem v72_7 : W7 m ρ c (Proc.devRef .tc main_v72) = Cert.ReferenceIdeal.Read.val_main_v78 (F := Ideal) (A0 m c) (A1 m c) (A3 m c) (A4 m c) (A5 m c) (A6 m c) (A7 m c) := by
  dsimp only [W7, hostOps3]; after_results_simp
  rw [(carried6 m ρ c).v3, (carried6 m ρ c).v6, (carried6 m ρ c).v28, v59_6]
  simp only [Cert.ReferenceIdeal.Read.val_main_v78, Cert.ReferenceIdeal.Read.val_main_v77, Cert.ReferenceIdeal.Read.val_main_v76, Cert.ReferenceIdeal.Read.val_main_cst_13, Cert.ReferenceIdeal.Read.val_main_v75, Cert.ReferenceIdeal.Read.val_main_v74, Cert.ReferenceIdeal.Read.val_main_v73, Cert.ReferenceIdeal.Read.val_main_v72, Cert.ReferenceIdeal.Read.val_main_v71, Cert.ReferenceIdeal.Read.val_main_v70, Cert.ReferenceIdeal.Read.val_main_v69, Cert.ReferenceIdeal.Read.val_main_v68, Cert.ReferenceIdeal.Read.val_main_c_12, Cert.ReferenceIdeal.Read.val_main_v67, Cert.ReferenceIdeal.Read.val_main_v66, Cert.ReferenceIdeal.Read.val_main_c_11]
  all_goals rfl
theorem v73_7 : W7 m ρ c (Proc.devRef .tc main_v73) = shapeCast S1x64 (A8 m c : S64.Idx → EReal) shapeCasts_S64_S1x64 := by
  dsimp only [W7, hostOps3]; after_results_simp
  rw [(carried6 m ρ c).a8]
  rfl
theorem carried7 : Carried m c (W7 m ρ c) := carried_host3 m c (carried6 m ρ c)

/-! ## After the fourth region: the node embeddings -/

theorem v74_8 : W8 m ρ c (Proc.devRef .tc main_v74) = Cert.ReferenceIdeal.Read.val_main_v81 (F := Ideal) (A0 m c) (A1 m c) (A3 m c) (A4 m c) (A5 m c) (A6 m c) (A7 m c) (A8 m c) :=
  (W8_arr m ρ c 2).trans (Cert.KernelIdeal.Pass3.region_out (V7 m ρ) c (A0 m c) (A1 m c) (A3 m c) (A4 m c) (A5 m c) (A6 m c) (A7 m c) (A8 m c) (v72_7 m ρ c) (v73_7 m ρ c))
theorem carried8 : Carried m c (W8 m ρ c) := carried_region3 m c (carried7 m ρ c) _

/-! ## After the last host stretch: the result -/

/-- The class logits: the negated per-class minima, from the last host stretch without its closing concatenation. -/
theorem v103_9 : after ((hostOps4 (F := Ideal)).take 43) (W8 m ρ c) (Proc.devRef .tc main_v103)
    = Cert.ReferenceIdeal.Read.val_main_v110 (F := Ideal) (A0 m c) (A1 m c) (A2 m c) (A3 m c) (A4 m c) (A5 m c) (A6 m c) (A7 m c) (A8 m c) (A9 m c) := by
  simp only [hostOps4, List.take_succ_cons, List.take_zero, List.drop_succ_cons, List.drop_zero]; after_results_simp
  rw [v74_8, (carried8 m ρ c).a2, (carried8 m ρ c).a9]
  simp only [Cert.ReferenceIdeal.Read.val_main_v116, Cert.ReferenceIdeal.Read.val_main_v115, Cert.ReferenceIdeal.Read.val_main_v114, Cert.ReferenceIdeal.Read.val_main_v113, Cert.ReferenceIdeal.Read.val_main_v112, Cert.ReferenceIdeal.Read.val_main_v111, Cert.ReferenceIdeal.Read.val_main_cst_22, Cert.ReferenceIdeal.Read.val_main_v110, Cert.ReferenceIdeal.Read.val_main_v109, Cert.ReferenceIdeal.Read.val_main_cst_21, Cert.ReferenceIdeal.Read.val_main_v108, Cert.ReferenceIdeal.Read.val_main_v107, Cert.ReferenceIdeal.Read.val_main_v106, Cert.ReferenceIdeal.Read.val_main_v105, Cert.ReferenceIdeal.Read.val_main_v104, Cert.ReferenceIdeal.Read.val_main_cst_20, Cert.ReferenceIdeal.Read.val_main_v103, Cert.ReferenceIdeal.Read.val_main_v102, Cert.ReferenceIdeal.Read.val_main_v101, Cert.ReferenceIdeal.Read.val_main_v100, Cert.ReferenceIdeal.Read.val_main_v99, Cert.ReferenceIdeal.Read.val_main_v98, Cert.ReferenceIdeal.Read.val_main_v97, Cert.ReferenceIdeal.Read.val_main_cst_19, Cert.ReferenceIdeal.Read.val_main_v96, Cert.ReferenceIdeal.Read.val_main_v95, Cert.ReferenceIdeal.Read.val_main_cst_18, Cert.ReferenceIdeal.Read.val_main_v94, Cert.ReferenceIdeal.Read.val_main_v93, Cert.ReferenceIdeal.Read.val_main_v92, Cert.ReferenceIdeal.Read.val_main_v91, Cert.ReferenceIdeal.Read.val_main_v90, Cert.ReferenceIdeal.Read.val_main_v89, Cert.ReferenceIdeal.Read.val_main_cst_17, Cert.ReferenceIdeal.Read.val_main_v88, Cert.ReferenceIdeal.Read.val_main_v87, Cert.ReferenceIdeal.Read.val_main_v86, Cert.ReferenceIdeal.Read.val_main_cst_16, Cert.ReferenceIdeal.Read.val_main_v85, Cert.ReferenceIdeal.Read.val_main_cst_15, Cert.ReferenceIdeal.Read.val_main_v84, Cert.ReferenceIdeal.Read.val_main_v83, Cert.ReferenceIdeal.Read.val_main_v82, Cert.ReferenceIdeal.Read.val_main_cst_14]
  all_goals rfl

/-- The reject logit: the minimum over the classes minus the reject bias, likewise. -/
theorem v108_9 : after ((hostOps4 (F := Ideal)).take 43) (W8 m ρ c) (Proc.devRef .tc main_v108)
    = Cert.ReferenceIdeal.Read.val_main_v115 (F := Ideal) (A0 m c) (A1 m c) (A2 m c) (A3 m c) (A4 m c) (A5 m c) (A6 m c) (A7 m c) (A8 m c) (A9 m c) (A10 m c) := by
  simp only [hostOps4, List.take_succ_cons, List.take_zero, List.drop_succ_cons, List.drop_zero]; after_results_simp
  rw [v74_8, (carried8 m ρ c).a2, (carried8 m ρ c).a9, (carried8 m ρ c).a10]
  simp only [Cert.ReferenceIdeal.Read.val_main_v116, Cert.ReferenceIdeal.Read.val_main_v115, Cert.ReferenceIdeal.Read.val_main_v114, Cert.ReferenceIdeal.Read.val_main_v113, Cert.ReferenceIdeal.Read.val_main_v112, Cert.ReferenceIdeal.Read.val_main_v111, Cert.ReferenceIdeal.Read.val_main_cst_22, Cert.ReferenceIdeal.Read.val_main_v110, Cert.ReferenceIdeal.Read.val_main_v109, Cert.ReferenceIdeal.Read.val_main_cst_21, Cert.ReferenceIdeal.Read.val_main_v108, Cert.ReferenceIdeal.Read.val_main_v107, Cert.ReferenceIdeal.Read.val_main_v106, Cert.ReferenceIdeal.Read.val_main_v105, Cert.ReferenceIdeal.Read.val_main_v104, Cert.ReferenceIdeal.Read.val_main_cst_20, Cert.ReferenceIdeal.Read.val_main_v103, Cert.ReferenceIdeal.Read.val_main_v102, Cert.ReferenceIdeal.Read.val_main_v101, Cert.ReferenceIdeal.Read.val_main_v100, Cert.ReferenceIdeal.Read.val_main_v99, Cert.ReferenceIdeal.Read.val_main_v98, Cert.ReferenceIdeal.Read.val_main_v97, Cert.ReferenceIdeal.Read.val_main_cst_19, Cert.ReferenceIdeal.Read.val_main_v96, Cert.ReferenceIdeal.Read.val_main_v95, Cert.ReferenceIdeal.Read.val_main_cst_18, Cert.ReferenceIdeal.Read.val_main_v94, Cert.ReferenceIdeal.Read.val_main_v93, Cert.ReferenceIdeal.Read.val_main_v92, Cert.ReferenceIdeal.Read.val_main_v91, Cert.ReferenceIdeal.Read.val_main_v90, Cert.ReferenceIdeal.Read.val_main_v89, Cert.ReferenceIdeal.Read.val_main_cst_17, Cert.ReferenceIdeal.Read.val_main_v88, Cert.ReferenceIdeal.Read.val_main_v87, Cert.ReferenceIdeal.Read.val_main_v86, Cert.ReferenceIdeal.Read.val_main_cst_16, Cert.ReferenceIdeal.Read.val_main_v85, Cert.ReferenceIdeal.Read.val_main_cst_15, Cert.ReferenceIdeal.Read.val_main_v84, Cert.ReferenceIdeal.Read.val_main_v83, Cert.ReferenceIdeal.Read.val_main_v82, Cert.ReferenceIdeal.Read.val_main_cst_14]
  all_goals rfl

/-- The kernel program's result buffer ends at the reference's last stage of the launch arguments: the two logit
    arrays joined along the last axis. -/
theorem result_eq : W9 m ρ c (Proc.devRef .tc main_v109) = Cert.ReferenceIdeal.Read.val_main_v116 (F := Ideal) (A0 m c) (A1 m c) (A2 m c) (A3 m c) (A4 m c) (A5 m c) (A6 m c) (A7 m c) (A8 m c) (A9 m c) (A10 m c) := by
  dsimp only [W9]
  rw [Cert.LibAfterSplit.after_take_drop 43 hostOps4]
  generalize hU : after ((hostOps4 (F := Ideal)).take 43) (W8 m ρ c) = U
  have h103 := v103_9 m ρ c
  have h108 := v108_9 m ρ c
  rw [hU] at h103 h108
  simp only [hostOps4, List.take_succ_cons, List.take_zero, List.drop_succ_cons, List.drop_zero, after_cons, after_nil]
  rw [StableHlo.binary_result, h103, h108]
  rfl

end Cert.KernelIdeal.Pass

end
-- ==== Proof.RefValue.lean ====
/-
  The reference's result as its last stage. The reference is one straight line of 146 host operations; its run
  ends with every buffer at the fold of the operations over the launch contents. The line is cut where the kernel
  program has its boundaries — after the first dot_general, and around each layer's aggregation and dense part —
  and the fold is walked cut by cut: within a cut every operation reads buffers that hold the stages of the same
  names, so the buffer it writes holds its own stage; a buffer no operation of a cut writes keeps its contents.
-/
import proofs.«180474_j65481071395054_1_alg».proof.Proof.RefRead
import proofs.«180474_j65481071395054_1_alg».proof.Proof.LibAfterSplit
import Idealize.ShloMosaic.Lib.StableHlo.Run

set_option maxRecDepth 16384

noncomputable section

namespace Cert.ReferenceIdeal.Pass

open Cert.ReferenceIdeal Cert.ReferenceIdeal.Value Cert.ReferenceIdeal.Read
open Idealize.ShloMosaic Idealize.ShloMosaic.TcCoe Idealize.SL.Sem Idealize.ShloMosaic.StableHlo

open Cert.LibAfterSplit (after_take_drop)

variable {F : FTy → Type} [FloatOps F]

/-- The cuts: through the first dot_general; then per layer its aggregation and its dense part; the rest is the pool
    and the distance head. -/
abbrev s1 : List (HloOp τ sig (Elt F)) := (ops (F := F)).take 37
abbrev r1 : List (HloOp τ sig (Elt F)) := (ops (F := F)).drop 37
abbrev a2 : List (HloOp τ sig (Elt F)) := (r1 (F := F)).take 16
abbrev r2a : List (HloOp τ sig (Elt F)) := (r1 (F := F)).drop 16
abbrev d2 : List (HloOp τ sig (Elt F)) := (r2a (F := F)).take 7
abbrev r2 : List (HloOp τ sig (Elt F)) := (r2a (F := F)).drop 7
abbrev a3 : List (HloOp τ sig (Elt F)) := (r2 (F := F)).take 16
abbrev r3a : List (HloOp τ sig (Elt F)) := (r2 (F := F)).drop 16
abbrev d3 : List (HloOp τ sig (Elt F)) := (r3a (F := F)).take 7
abbrev r3 : List (HloOp τ sig (Elt F)) := (r3a (F := F)).drop 7
abbrev a4 : List (HloOp τ sig (Elt F)) := (r3 (F := F)).take 16
abbrev r4a : List (HloOp τ sig (Elt F)) := (r3 (F := F)).drop 16
abbrev d4 : List (HloOp τ sig (Elt F)) := (r4a (F := F)).take 3
abbrev r4 : List (HloOp τ sig (Elt F)) := (r4a (F := F)).drop 3

theorem after_cuts (V : Valuation τ sig (Elt F)) :
    after (ops (F := F)) V = after r4 (after d4 (after a4 (after d3 (after a3 (after d2 (after a2 (after s1 V))))))) := by
  rw [after_take_drop 37 ops V, after_take_drop 16 (ops.drop 37), after_take_drop 7 ((ops.drop 37).drop 16),
    after_take_drop 16 (((ops.drop 37).drop 16).drop 7), after_take_drop 7 ((((ops.drop 37).drop 16).drop 7).drop 16),
    after_take_drop 16 (((((ops.drop 37).drop 16).drop 7).drop 16).drop 7),
    after_take_drop 3 ((((((ops.drop 37).drop 16).drop 7).drop 16).drop 7).drop 16)]

variable (m : (ℓ : Loc nD τ sig) → Buf (Elt Ideal) ℓ) (c : Dev nD)

/-- Argument 0 as launched. -/
abbrev B0 : (⟨S100000x128, .f32⟩ : BufTy).Contents (Elt Ideal) := m ((c.tc : Thread nD τ).loc main_arg0)
/-- Argument 1 as launched. -/
abbrev B1 : (⟨S2x1600000, .i32⟩ : BufTy).Contents (Elt Ideal) := m ((c.tc : Thread nD τ).loc main_arg1)
/-- Argument 2 as launched. -/
abbrev B2 : (⟨S100000, .i32⟩ : BufTy).Contents (Elt Ideal) := m ((c.tc : Thread nD τ).loc main_arg2)
/-- Argument 3 as launched. -/
abbrev B3 : (⟨S128x64, .f32⟩ : BufTy).Contents (Elt Ideal) := m ((c.tc : Thread nD τ).loc main_arg3)
/-- Argument 4 as launched. -/
abbrev B4 : (⟨S64, .f32⟩ : BufTy).Contents (Elt Ideal) := m ((c.tc : Thread nD τ).loc main_arg4)
/-- Argument 5 as launched. -/
abbrev B5 : (⟨S64x64, .f32⟩ : BufTy).Contents (Elt Ideal) := m ((c.tc : Thread nD τ).loc main_arg5)
/-- Argument 6 as launched. -/
abbrev B6 : (⟨S64, .f32⟩ : BufTy).Contents (Elt Ideal) := m ((c.tc : Thread nD τ).loc main_arg6)
/-- Argument 7 as launched. -/
abbrev B7 : (⟨S64x64, .f32⟩ : BufTy).Contents (Elt Ideal) := m ((c.tc : Thread nD τ).loc main_arg7)
/-- Argument 8 as launched. -/
abbrev B8 : (⟨S64, .f32⟩ : BufTy).Contents (Elt Ideal) := m ((c.tc : Thread nD τ).loc main_arg8)
/-- Argument 9 as launched. -/
abbrev B9 : (⟨S48x64, .f32⟩ : BufTy).Contents (Elt Ideal) := m ((c.tc : Thread nD τ).loc main_arg9)
/-- Argument 10 as launched. -/
abbrev B10 : (⟨S1, .f32⟩ : BufTy).Contents (Elt Ideal) := m ((c.tc : Thread nD τ).loc main_arg10)

/-- What the later cuts read and the dense layers do not write: the two index vectors, the normalisation, and the
    arguments read later, each at its stage of the launch arguments. -/
structure RCarried (W : Valuation τ sig (Elt Ideal)) : Prop where
  v3 : W (Proc.devRef .tc main_v3) = val_main_v3 (F := Ideal) (B1 m c)
  v6 : W (Proc.devRef .tc main_v6) = val_main_v6 (F := Ideal) (B1 m c)
  v28 : W (Proc.devRef .tc main_v28) = val_main_v28 (F := Ideal) (B1 m c)
  a2 : W (Proc.devRef .tc main_arg2) = B2 m c
  a4 : W (Proc.devRef .tc main_arg4) = B4 m c
  a6 : W (Proc.devRef .tc main_arg6) = B6 m c
  a8 : W (Proc.devRef .tc main_arg8) = B8 m c
  a9 : W (Proc.devRef .tc main_arg9) = B9 m c
  a10 : W (Proc.devRef .tc main_arg10) = B10 m c

/-- Cut `a2` writes none of the carried buffers. -/
theorem rcarried_a2 {W : Valuation τ sig (Elt Ideal)} (h : RCarried m c W) : RCarried m c (after (a2 (F := Ideal)) W) := by
  obtain ⟨h1, h2, h3, h4, h5, h6, h7, h8, h9⟩ := h
  refine ⟨?_, ?_, ?_, ?_, ?_, ?_, ?_, ?_, ?_⟩
  all_goals (simp only [s1, r1, a2, r2a, d2, r2, a3, r3a, d3, r3, a4, r4a, d4, r4, ops, List.take_succ_cons, List.take_zero, List.drop_succ_cons, List.drop_zero]; after_results_simp)
  all_goals assumption

/-- Cut `d2` writes none of the carried buffers. -/
theorem rcarried_d2 {W : Valuation τ sig (Elt Ideal)} (h : RCarried m c W) : RCarried m c (after (d2 (F := Ideal)) W) := by
  obtain ⟨h1, h2, h3, h4, h5, h6, h7, h8, h9⟩ := h
  refine ⟨?_, ?_, ?_, ?_, ?_, ?_, ?_, ?_, ?_⟩
  all_goals (simp only [s1, r1, a2, r2a, d2, r2, a3, r3a, d3, r3, a4, r4a, d4, r4, ops, List.take_succ_cons, List.take_zero, List.drop_succ_cons, List.drop_zero]; after_results_simp)
  all_goals assumption

/-- Cut `a3` writes none of the carried buffers. -/
theorem rcarried_a3 {W : Valuation τ sig (Elt Ideal)} (h : RCarried m c W) : RCarried m c (after (a3 (F := Ideal)) W) := by
  obtain ⟨h1, h2, h3, h4, h5, h6, h7, h8, h9⟩ := h
  refine ⟨?_, ?_, ?_, ?_, ?_, ?_, ?_, ?_, ?_⟩
  all_goals (simp only [s1, r1, a2, r2a, d2, r2, a3, r3a, d3, r3, a4, r4a, d4, r4, ops, List.take_succ_cons, List.take_zero, List.drop_succ_cons, List.drop_zero]; after_results_simp)
  all_goals assumption

/-- Cut `d3` writes none of the carried buffers. -/
theorem rcarried_d3 {W : Valuation τ sig (Elt Ideal)} (h : RCarried m c W) : RCarried m c (after (d3 (F := Ideal)) W) := by
  obtain ⟨h1, h2, h3, h4, h5, h6, h7, h8, h9⟩ := h
  refine ⟨?_, ?_, ?_, ?_, ?_, ?_, ?_, ?_, ?_⟩
  all_goals (simp only [s1, r1, a2, r2a, d2, r2, a3, r3a, d3, r3, a4, r4a, d4, r4, ops, List.take_succ_cons, List.take_zero, List.drop_succ_cons, List.drop_zero]; after_results_simp)
  all_goals assumption

/-- Cut `a4` writes none of the carried buffers. -/
theorem rcarried_a4 {W : Valuation τ sig (Elt Ideal)} (h : RCarried m c W) : RCarried m c (after (a4 (F := Ideal)) W) := by
  obtain ⟨h1, h2, h3, h4, h5, h6, h7, h8, h9⟩ := h
  refine ⟨?_, ?_, ?_, ?_, ?_, ?_, ?_, ?_, ?_⟩
  all_goals (simp only [s1, r1, a2, r2a, d2, r2, a3, r3a, d3, r3, a4, r4a, d4, r4, ops, List.take_succ_cons, List.take_zero, List.drop_succ_cons, List.drop_zero]; after_results_simp)
  all_goals assumption

/-- Cut `d4` writes none of the carried buffers. -/
theorem rcarried_d4 {W : Valuation τ sig (Elt Ideal)} (h : RCarried m c W) : RCarried m c (after (d4 (F := Ideal)) W) := by
  obtain ⟨h1, h2, h3, h4, h5, h6, h7, h8, h9⟩ := h
  refine ⟨?_, ?_, ?_, ?_, ?_, ?_, ?_, ?_, ?_⟩
  all_goals (simp only [s1, r1, a2, r2a, d2, r2, a3, r3a, d3, r3, a4, r4a, d4, r4, ops, List.take_succ_cons, List.take_zero, List.drop_succ_cons, List.drop_zero]; after_results_simp)
  all_goals assumption

/-- The buffers after each cut. -/
abbrev U1 : Valuation τ sig (Elt Ideal) := after (s1 (F := Ideal)) (launchContents m c)
abbrev P2 : Valuation τ sig (Elt Ideal) := after (a2 (F := Ideal)) (U1 m c)
abbrev U2 : Valuation τ sig (Elt Ideal) := after (d2 (F := Ideal)) (P2 m c)
abbrev P3 : Valuation τ sig (Elt Ideal) := after (a3 (F := Ideal)) (U2 m c)
abbrev U3 : Valuation τ sig (Elt Ideal) := after (d3 (F := Ideal)) (P3 m c)
abbrev P4 : Valuation τ sig (Elt Ideal) := after (a4 (F := Ideal)) (U3 m c)
abbrev U4 : Valuation τ sig (Elt Ideal) := after (d4 (F := Ideal)) (P4 m c)

/-! ## A called function's operations read and write their buffers at the value's type -/

/-- Moving contents to a buffer's own type and back is the identity. -/
theorem ofBuf_toBuf {T : BufTy} {Val : EltTy → Type} (x : TRef sig T) (v : T.Contents Val) : x.ofBuf (x.toBuf v) = v := by
  obtain ⟨r, h, h2, h3⟩ := x
  subst h
  rfl

/-- At the buffers the two activation calls read and write, the buffer's type is the value's, and the move is the identity. -/
theorem toBuf_v46 (X : (⟨S100000x64, .f32⟩ : BufTy).Contents (Elt Ideal)) (h1 h2 h3) :
    (TRef.of (T := ⟨S100000x64, .f32⟩) main_v46 h1 h2 h3).toBuf X = X := rfl
theorem ofBuf_v45 (X : (⟨S100000x64, .f32⟩ : BufTy).Contents (Elt Ideal)) (h1 h2 h3) :
    (TRef.of (T := ⟨S100000x64, .f32⟩) main_v45 h1 h2 h3).ofBuf X = X := rfl
theorem toBuf_v64 (X : (⟨S100000x64, .f32⟩ : BufTy).Contents (Elt Ideal)) (h1 h2 h3) :
    (TRef.of (T := ⟨S100000x64, .f32⟩) main_v64 h1 h2 h3).toBuf X = X := rfl
theorem ofBuf_v63 (X : (⟨S100000x64, .f32⟩ : BufTy).Contents (Elt Ideal)) (h1 h2 h3) :
    (TRef.of (T := ⟨S100000x64, .f32⟩) main_v63 h1 h2 h3).ofBuf X = X := rfl

/-! ## Through the first dot_general -/

theorem rcarried1 : RCarried m c (U1 m c) := by
  refine ⟨?_, ?_, ?_, ?_, ?_, ?_, ?_, ?_, ?_⟩
  all_goals (simp only [U1, s1, r1, a2, r2a, d2, r2, a3, r3a, d3, r3, a4, r4a, d4, r4, ops, List.take_succ_cons, List.take_zero, List.drop_succ_cons, List.drop_zero]; after_results_simp)
  all_goals rfl
theorem v29_1 : U1 m c (Proc.devRef .tc main_v29) = val_main_v29 (F := Ideal) (B0 m c) (B3 m c) := by
  simp only [U1, s1, r1, a2, r2a, d2, r2, a3, r3a, d3, r3, a4, r4a, d4, r4, ops, List.take_succ_cons, List.take_zero, List.drop_succ_cons, List.drop_zero]; after_results_simp; rfl
theorem arg5_1 : U1 m c (Proc.devRef .tc main_arg5) = B5 m c := by
  simp only [U1, s1, r1, a2, r2a, d2, r2, a3, r3a, d3, r3, a4, r4a, d4, r4, ops, List.take_succ_cons, List.take_zero, List.drop_succ_cons, List.drop_zero]; after_results_simp
theorem arg7_1 : U1 m c (Proc.devRef .tc main_arg7) = B7 m c := by
  simp only [U1, s1, r1, a2, r2a, d2, r2, a3, r3a, d3, r3, a4, r4a, d4, r4, ops, List.take_succ_cons, List.take_zero, List.drop_succ_cons, List.drop_zero]; after_results_simp

/-! ## The first layer's aggregation -/

theorem v42_p2 : P2 m c (Proc.devRef .tc main_v42) = val_main_v42 (F := Ideal) (B0 m c) (B1 m c) (B3 m c) := by
  simp only [P2, s1, r1, a2, r2a, d2, r2, a3, r3a, d3, r3, a4, r4a, d4, r4, ops, List.take_succ_cons, List.take_zero, List.drop_succ_cons, List.drop_zero]; after_results_simp
  rw [(rcarried1 m c).v3, (rcarried1 m c).v6, (rcarried1 m c).v28, v29_1]
  simp only [val_main_v42, val_main_v41, val_main_v40, val_main_cst_7, val_main_v39, val_main_v38, val_main_v37, val_main_v36, val_main_v35, val_main_v34, val_main_v33, val_main_v32, val_main_c_6, val_main_v31, val_main_v30, val_main_c_5]
  all_goals rfl
theorem rcarried_p2 : RCarried m c (P2 m c) := rcarried_a2 m c (rcarried1 m c)
theorem arg5_p2 : P2 m c (Proc.devRef .tc main_arg5) = B5 m c := by
  simp only [P2, s1, r1, a2, r2a, d2, r2, a3, r3a, d3, r3, a4, r4a, d4, r4, ops, List.take_succ_cons, List.take_zero, List.drop_succ_cons, List.drop_zero]; after_results_simp; exact arg5_1 m c
theorem arg7_p2 : P2 m c (Proc.devRef .tc main_arg7) = B7 m c := by
  simp only [P2, s1, r1, a2, r2a, d2, r2, a3, r3a, d3, r3, a4, r4a, d4, r4, ops, List.take_succ_cons, List.take_zero, List.drop_succ_cons, List.drop_zero]; after_results_simp; exact arg7_1 m c

/-! ## The first layer's bias, maximum with zero, and the second projection -/

theorem v47_2 : U2 m c (Proc.devRef .tc main_v47) = val_main_v47 (F := Ideal) (B0 m c) (B1 m c) (B3 m c) (B4 m c) (B5 m c) := by
  simp only [U2, s1, r1, a2, r2a, d2, r2, a3, r3a, d3, r3, a4, r4a, d4, r4, ops, List.take_succ_cons, List.take_zero, List.drop_succ_cons, List.drop_zero]; after_results_simp
  rw [v42_p2, (rcarried_p2 m c).a4, arg5_p2]
  simp only [val_main_v47, val_main_v46, val_main_v45, val_main_v44, val_main_v43, val_main_call0_v0, val_main_call0_cst]
  simp only [ofBuf_toBuf, toBuf_v46, ofBuf_v45]
theorem rcarried2 : RCarried m c (U2 m c) := rcarried_d2 m c (rcarried_p2 m c)
theorem arg7_2 : U2 m c (Proc.devRef .tc main_arg7) = B7 m c := by
  simp only [U2, s1, r1, a2, r2a, d2, r2, a3, r3a, d3, r3, a4, r4a, d4, r4, ops, List.take_succ_cons, List.take_zero, List.drop_succ_cons, List.drop_zero]; after_results_simp; exact arg7_p2 m c

/-! ## The second layer's aggregation -/

theorem v60_p3 : P3 m c (Proc.devRef .tc main_v60) = val_main_v60 (F := Ideal) (B0 m c) (B1 m c) (B3 m c) (B4 m c) (B5 m c) := by
  simp only [P3, s1, r1, a2, r2a, d2, r2, a3, r3a, d3, r3, a4, r4a, d4, r4, ops, List.take_succ_cons, List.take_zero, List.drop_succ_cons, List.drop_zero]; after_results_simp
  rw [(rcarried2 m c).v3, (rcarried2 m c).v6, (rcarried2 m c).v28, v47_2]
  simp only [val_main_v60, val_main_v59, val_main_v58, val_main_cst_10, val_main_v57, val_main_v56, val_main_v55, val_main_v54, val_main_v53, val_main_v52, val_main_v51, val_main_v50, val_main_c_9, val_main_v49, val_main_v48, val_main_c_8]
  all_goals rfl
theorem rcarried_p3 : RCarried m c (P3 m c) := rcarried_a3 m c (rcarried2 m c)
theorem arg7_p3 : P3 m c (Proc.devRef .tc main_arg7) = B7 m c := by
  simp only [P3, s1, r1, a2, r2a, d2, r2, a3, r3a, d3, r3, a4, r4a, d4, r4, ops, List.take_succ_cons, List.take_zero, List.drop_succ_cons, List.drop_zero]; after_results_simp; exact arg7_2 m c

/-! ## The second layer's bias, maximum with zero, and the third projection -/

theorem v65_3 : U3 m c (Proc.devRef .tc main_v65) = val_main_v65 (F := Ideal) (B0 m c) (B1 m c) (B3 m c) (B4 m c) (B5 m c) (B6 m c) (B7 m c) := by
  simp only [U3, s1, r1, a2, r2a, d2, r2, a3, r3a, d3, r3, a4, r4a, d4, r4, ops, List.take_succ_cons, List.take_zero, List.drop_succ_cons, List.drop_zero]; after_results_simp
  rw [v60_p3, (rcarried_p3 m c).a6, arg7_p3]
  simp only [val_main_v65, val_main_v64, val_main_v63, val_main_v62, val_main_v61, val_main_call1_v0, val_main_call1_cst]
  simp only [ofBuf_toBuf, toBuf_v64, ofBuf_v63]
theorem rcarried3 : RCarried m c (U3 m c) := rcarried_d3 m c (rcarried_p3 m c)

/-! ## The third layer's aggregation -/

theorem v78_p4 : P4 m c (Proc.devRef .tc main_v78) = val_main_v78 (F := Ideal) (B0 m c) (B1 m c) (B3 m c) (B4 m c) (B5 m c) (B6 m c) (B7 m c) := by
  simp only [P4, s1, r1, a2, r2a, d2, r2, a3, r3a, d3, r3, a4, r4a, d4, r4, ops, List.take_succ_cons, List.take_zero, List.drop_succ_cons, List.drop_zero]; after_results_simp
  rw [(rcarried3 m c).v3, (rcarried3 m c).v6, (rcarried3 m c).v28, v65_3]
  simp only [val_main_v78, val_main_v77, val_main_v76, val_main_cst_13, val_main_v75, val_main_v74, val_main_v73, val_main_v72, val_main_v71, val_main_v70, val_main_v69, val_main_v68, val_main_c_12, val_main_v67, val_main_v66, val_main_c_11]
  all_goals rfl
theorem rcarried_p4 : RCarried m c (P4 m c) := rcarried_a4 m c (rcarried3 m c)

/-! ## The third layer's bias -/

theorem v81_4 : U4 m c (Proc.devRef .tc main_v81) = val_main_v81 (F := Ideal) (B0 m c) (B1 m c) (B3 m c) (B4 m c) (B5 m c) (B6 m c) (B7 m c) (B8 m c) := by
  simp only [U4, s1, r1, a2, r2a, d2, r2, a3, r3a, d3, r3, a4, r4a, d4, r4, ops, List.take_succ_cons, List.take_zero, List.drop_succ_cons, List.drop_zero]; after_results_simp
  rw [v78_p4, (rcarried_p4 m c).a8]
  simp only [val_main_v81, val_main_v80, val_main_v79]
  all_goals rfl
theorem rcarried4 : RCarried m c (U4 m c) := rcarried_d4 m c (rcarried_p4 m c)

/-! ## The pool and the distance head: the result -/

/-- The class logits: the negated per-class minima, from the last cut without its closing concatenation. -/
theorem v110_5 : after ((r4 (F := Ideal)).take 43) (U4 m c) (Proc.devRef .tc main_v110)
    = val_main_v110 (F := Ideal) (B0 m c) (B1 m c) (B2 m c) (B3 m c) (B4 m c) (B5 m c) (B6 m c) (B7 m c) (B8 m c) (B9 m c) := by
  simp only [s1, r1, a2, r2a, d2, r2, a3, r3a, d3, r3, a4, r4a, d4, r4, ops, List.take_succ_cons, List.take_zero, List.drop_succ_cons, List.drop_zero]; after_results_simp
  rw [v81_4, (rcarried4 m c).a2, (rcarried4 m c).a9]
  simp only [val_main_v116, val_main_v115, val_main_v114, val_main_v113, val_main_v112, val_main_v111, val_main_cst_22, val_main_v110, val_main_v109, val_main_cst_21, val_main_v108, val_main_v107, val_main_v106, val_main_v105, val_main_v104, val_main_cst_20, val_main_v103, val_main_v102, val_main_v101, val_main_v100, val_main_v99, val_main_v98, val_main_v97, val_main_cst_19, val_main_v96, val_main_v95, val_main_cst_18, val_main_v94, val_main_v93, val_main_v92, val_main_v91, val_main_v90, val_main_v89, val_main_cst_17, val_main_v88, val_main_v87, val_main_v86, val_main_cst_16, val_main_v85, val_main_cst_15, val_main_v84, val_main_v83, val_main_v82, val_main_cst_14]
  all_goals rfl

/-- The reject logit: the minimum over the classes minus the reject bias, likewise. -/
theorem v115_5 : after ((r4 (F := Ideal)).take 43) (U4 m c) (Proc.devRef .tc main_v115)
    = val_main_v115 (F := Ideal) (B0 m c) (B1 m c) (B2 m c) (B3 m c) (B4 m c) (B5 m c) (B6 m c) (B7 m c) (B8 m c) (B9 m c) (B10 m c) := by
  simp only [s1, r1, a2, r2a, d2, r2, a3, r3a, d3, r3, a4, r4a, d4, r4, ops, List.take_succ_cons, List.take_zero, List.drop_succ_cons, List.drop_zero]; after_results_simp
  rw [v81_4, (rcarried4 m c).a2, (rcarried4 m c).a9, (rcarried4 m c).a10]
  simp only [val_main_v116, val_main_v115, val_main_v114, val_main_v113, val_main_v112, val_main_v111, val_main_cst_22, val_main_v110, val_main_v109, val_main_cst_21, val_main_v108, val_main_v107, val_main_v106, val_main_v105, val_main_v104, val_main_cst_20, val_main_v103, val_main_v102, val_main_v101, val_main_v100, val_main_v99, val_main_v98, val_main_v97, val_main_cst_19, val_main_v96, val_main_v95, val_main_cst_18, val_main_v94, val_main_v93, val_main_v92, val_main_v91, val_main_v90, val_main_v89, val_main_cst_17, val_main_v88, val_main_v87, val_main_v86, val_main_cst_16, val_main_v85, val_main_cst_15, val_main_v84, val_main_v83, val_main_v82, val_main_cst_14]
  all_goals rfl

/-- The reference's result buffer ends at its last stage of the launch arguments: the two logit arrays joined along
    the last axis. -/
theorem result_eq : after (ops (F := Ideal)) (launchContents m c) (Proc.devRef .tc main_v116)
    = val_main_v116 (F := Ideal) (B0 m c) (B1 m c) (B2 m c) (B3 m c) (B4 m c) (B5 m c) (B6 m c) (B7 m c) (B8 m c) (B9 m c) (B10 m c) := by
  rw [after_cuts]
  show after (r4 (F := Ideal)) (U4 m c) (Proc.devRef .tc main_v116) = _
  rw [after_take_drop 43 (r4 (F := Ideal))]
  generalize hU : after ((r4 (F := Ideal)).take 43) (U4 m c) = U
  have h110 := v110_5 m c
  have h115 := v115_5 m c
  rw [hU] at h110 h115
  simp only [s1, r1, a2, r2a, d2, r2, a3, r3a, d3, r3, a4, r4a, d4, r4, ops, List.take_succ_cons, List.take_zero, List.drop_succ_cons, List.drop_zero]
  simp only [after_cons, after_nil]
  rw [binary_result, h110, h115]
  rfl

end Cert.ReferenceIdeal.Pass

end
-- ==== Proof.lean ====
/-
  A three-layer graph convolution (symmetric normalisation over the graph with self loops; per layer project,
  gather along the sources, scale, scatter-add along the destinations, add the bias), a mean pool over the graphs
  and squared distances to class centroids. The kernel program computes the three projections and the last bias
  add in pipelined regions over ten row blocks of 10000 nodes, fusing each hidden layer's bias and maximum with
  zero into the next projection's region; the reference computes them with host operations on whole arrays. All
  the gather, scatter and pooling work is the same host operations in both programs.

  Over the extended reals the two programs end with the same result, stage by stage: a region's matrix-unit
  product into a zero accumulator is the plain sum over the contracted coordinate, as the host's dot_general is;
  rounding an operand to bf16 changes nothing; the row blocks tile the node axis, so the blockwise results are the
  restrictions of the whole-array result; the bias reshaped to a row is the bias broadcast to a row. No law of
  arithmetic is needed beyond these readings, so the precondition is not used. The ideal pass rewrote nothing, so
  the idealization is the kernel program's own text and there is nothing to preserve.
-/
import proofs.«180474_j65481071395054_1_alg».proof.Defs
import proofs.«180474_j65481071395054_1_alg».proof.Proof.Gen.Kernel
import proofs.«180474_j65481071395054_1_alg».proof.Proof.Gen.Kernel.Skeleton
import proofs.«180474_j65481071395054_1_alg».proof.Proof.Gen.Kernel.Launch
import proofs.«180474_j65481071395054_1_alg».proof.Proof.Gen.Kernel.Points
import proofs.«180474_j65481071395054_1_alg».proof.Proof.Gen.Kernel.Frame
import proofs.«180474_j65481071395054_1_alg».proof.Proof.Gen.KernelIdeal
import proofs.«180474_j65481071395054_1_alg».proof.Proof.Gen.KernelIdeal.Skeleton
import proofs.«180474_j65481071395054_1_alg».proof.Proof.Gen.KernelIdeal.Launch
import proofs.«180474_j65481071395054_1_alg».proof.Proof.Gen.KernelIdeal.Points
import proofs.«180474_j65481071395054_1_alg».proof.Proof.Gen.KernelIdeal.Frame
import proofs.«180474_j65481071395054_1_alg».proof.Proof.Gen.ReferenceIdeal
import proofs.«180474_j65481071395054_1_alg».proof.Proof.Gen.Pre_finite_inputs
import proofs.«180474_j65481071395054_1_alg».proof.Proof.KernelRun
import proofs.«180474_j65481071395054_1_alg».proof.Proof.Boundaries
import proofs.«180474_j65481071395054_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at the reference's last stage of
    the arguments: the kernel program's boundaries walked to its result buffer, the reference's line walked cut by
    cut, and the arguments' agreement. -/
theorem algebraic : Cert.algebraic_KernelIdeal_ReferenceIdeal := by
  intro m ρ m' ρ' _ hagree
  refine ⟨fun c => Cert.ReferenceIdeal.Read.val_main_v116 (F := Ideal) (Cert.KernelIdeal.Pass.A0 m c) (Cert.KernelIdeal.Pass.A1 m c) (Cert.KernelIdeal.Pass.A2 m c) (Cert.KernelIdeal.Pass.A3 m c) (Cert.KernelIdeal.Pass.A4 m c) (Cert.KernelIdeal.Pass.A5 m c) (Cert.KernelIdeal.Pass.A6 m c) (Cert.KernelIdeal.Pass.A7 m c) (Cert.KernelIdeal.Pass.A8 m c) (Cert.KernelIdeal.Pass.A9 m c) (Cert.KernelIdeal.Pass.A10 m c), ?_, ?_⟩
  · exact (θ_run Cert.KernelIdeal.defs _ _).mono
      (fun r h c => ⟨(h c).1.trans (Cert.KernelIdeal.Pass.result_eq m ρ c), (h c).2⟩)
      (Cert.KernelIdeal.Pass.result_run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Pass.result_eq m' c]
    obtain ⟨e0, e1, e2, e3, e4, e5, e6, e7, e8, e9, e10⟩ := hagree c
    dsimp only [Cert.ReferenceIdeal.Pass.B0, Cert.ReferenceIdeal.Pass.B1, Cert.ReferenceIdeal.Pass.B2, Cert.ReferenceIdeal.Pass.B3,
      Cert.ReferenceIdeal.Pass.B4, Cert.ReferenceIdeal.Pass.B5, Cert.ReferenceIdeal.Pass.B6, Cert.ReferenceIdeal.Pass.B7,
      Cert.ReferenceIdeal.Pass.B8, Cert.ReferenceIdeal.Pass.B9, Cert.ReferenceIdeal.Pass.B10]
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
